-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x20480 : Shape := ⟨2, ![4096, 20480]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x20480 : S_.BroadcastsInDim S4096x20480 (![] : Fin 0 → Fin S4096x20480.rank)
  reducesTo_S4096x20480_S_d0_1 : S4096x20480.ReducesTo [0, 1] S_
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x32 .f32) (main_arg12 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x512 .f32) (main_arg8 : FVec F S32 .f32) (main_arg9 : FVec F S32x32 .f32) (main_arg10 : FVec F S32 .f32) (main_arg11 : FVec F S1x32 .f32) (main_arg12 : FVec F S1 .f32) (main_v33 : IVec S_ 1) : IVec S_ 1 :=
  let main_v34 : FVec F S32x512 .f32 := Host.absf main_arg7
  let main_cst_12 : FVec F S_ .f32 := constant S_ .f32 0x7F800000#32
  let main_v35 : FVec F S32x512 .f32 := broadcastInDim S32x512 ![] bcast_S_S32x512 main_cst_12
  let main_v36 : IVec S32x512 1 := cmpf .olt main_v34 main_v35
  let main_c_13 : IVec S_ 1 := constantI S_ 1 1#1
  let main_v37 : IVec S_ 1 := (fun x v => Host.reduce IntOp.andi x v reducesTo_S32x512_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S256 .f32) (main_arg5 : FVec F S256x40960 .f32) (main_arg6 : FVec F S256 .f32) (main_arg7 : FVec F S32x512 .f32) (main_arg8 : FVec F S32 .f32) (main_arg9 : FVec F S32x32 .f32) (main_arg10 : FVec F S32 .f32) (main_arg11 : FVec F S1x32 .f32) (main_arg12 : FVec F S1 .f32) (main_v13 : IVec S_ 1) (main_v16 : IVec S256x40960 1) : IVec S_ 1 :=
  let main_c_5 : IVec S_ 1 := constantI S_ 1 1#1
  let main_v17 : IVec S_ 1 := (fun x v => Host.reduce IntOp.andi x v reducesTo_S256x40960_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x40960 .f32 := Host.absf main_arg5
  let main_cst_8 : FVec F S_ .f32 := constant S_ .f32 0x7F800000#32
  let main_v25 : FVec F S256x40960 .f32 := broadcastInDim S256x40960 ![] bcast_S_S256x40960 main_cst_8
  let main_v26 : IVec S256x40960 1 := cmpf .olt main_v24 main_v25
  let main_c_9 : IVec S_ 1 := constantI S_ 1 1#1
  let main_v27 : IVec S_ 1 := (fun x v => Host.reduce IntOp.andi x v reducesTo_S256x40960_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x1 .f32) (main_arg1 : FVec F S4096x20480 .f32) (main_arg2 : FVec F S4096x20480 .f32) (main_arg3 : FVec F S256x40960 .f32) (main_arg4 : FVec F S256 .f32) (main_arg5 : FVec F S256x40960 .f32) (main_arg6 : FVec F S256 .f32) (main_arg7 : FVec F S32x512 .f32) (main_arg8 : FVec F S32 .f32) (main_arg9 : FVec F S32x32 .f32) (main_arg10 : FVec F S32 .f32) (main_arg11 : FVec F S1x32 .f32) (main_arg12 : FVec F S1 .f32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x20480 .f32 := Host.absf main_arg1
  let main_cst_0 : FVec F S_ .f32 := constant S_ .f32 0x7F800000#32
  let main_v5 : FVec F S4096x20480 .f32 := broadcastInDim S4096x20480 ![] bcast_S_S4096x20480 main_cst_0
  let main_v6 : IVec S4096x20480 1 := cmpf .olt main_v4 main_v5
  let main_c_1 : IVec S_ 1 := constantI S_ 1 1#1
  let main_v7 : IVec S_ 1 := (fun x v => Host.reduce IntOp.andi x v reducesTo_S4096x20480_S_d0_1 h_S_) main_v6 main_c_1
  let main_v8 : IVec S_ 1 := andi main_v3 main_v7
  let main_v9 : FVec F S4096x20480 .f32 := Host.absf main_arg2
  let main_cst_2 : FVec F S_ .f32 := constant S_ .f32 0x7F800000#32
  let main_v10 : FVec F S4096x20480 .f32 := broadcastInDim S4096x20480 ![] bcast_S_S4096x20480 main_cst_2
  let main_v11 : IVec S4096x20480 1 := cmpf .olt main_v9 main_v10
  let main_c_3 : IVec S_ 1 := constantI S_ 1 1#1
  let main_v12 : IVec S_ 1 := (fun x v => Host.reduce IntOp.andi x v reducesTo_S4096x20480_S_d0_1 h_S_) main_v11 main_c_3
  let main_v13 : IVec S_ 1 := andi main_v8 main_v12
  let main_v14 : FVec F S256x40960 .f32 := Host.absf main_arg3
  let main_cst_4 : FVec F S_ .f32 := constant S_ .f32 0x7F800000#32
  let main_v15 : FVec F S256x40960 .f32 := broadcastInDim S256x40960 ![] bcast_S_S256x40960 main_cst_4
  let main_v16 : IVec S256x40960 1 := cmpf .olt main_v14 main_v15
  fn_part1 (F := F) main_arg4 main_arg5 main_arg6 main_arg7 main_arg8 main_arg9 main_arg10 main_arg11 main_arg12 main_v13 main_v16
-- ==== Kernel.lean ====
abbrev S4096x1 : Shape := ⟨2, ![4096, 1]⟩
abbrev S4096x20480 : Shape := ⟨2, ![4096, 20480]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S512x1 : Shape := ⟨2, ![512, 1]⟩
abbrev S512x2048 : Shape := ⟨2, ![512, 2048]⟩
abbrev S256x2048 : Shape := ⟨2, ![256, 2048]⟩
abbrev S512x256 : Shape := ⟨2, ![512, 256]⟩
abbrev S1x256 : Shape := ⟨2, ![1, 256]⟩
abbrev S512x512 : Shape := ⟨2, ![512, 512]⟩
abbrev S512x32 : Shape := ⟨2, ![512, 32]⟩
abbrev S1x1 : Shape := ⟨2, ![1, 1]⟩

abbrev nBuf : Space → Nat
  | .hbm => 14
  | .vmem => 26
  | .smem => 0
  | _ => 0

abbrev bufTy : (tb : Table) → Fin (tcTables nBuf tb) → BufTy
  | .hbm, ⟨0, _⟩ => ⟨S4096x1, .f32⟩
  | .hbm, ⟨1, _⟩ => ⟨S4096x20480, .f32⟩
  | .hbm, ⟨2, _⟩ => ⟨S4096x20480, .f32⟩
  | .hbm, ⟨3, _⟩ => ⟨S256x40960, .f32⟩
  | .hbm, ⟨4, _⟩ => ⟨S256, .f32⟩
  | .hbm, ⟨5, _⟩ => ⟨S256x40960, .f32⟩
  | .hbm, ⟨6, _⟩ => ⟨S256, .f32⟩
  | .hbm, ⟨7, _⟩ => ⟨S32x512, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S4096x1, .f32⟩
  | .local _ .vmem, ⟨0, _⟩ => ⟨S512x1, .f32⟩
  | .local _ .vmem, ⟨1, _⟩ => ⟨S512x1, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256, .f32⟩
  | .local _ .vmem, ⟨15, _⟩ => ⟨S256, .f32⟩
  | .local _ .vmem, ⟨16, _⟩ => ⟨S32x512, .f32⟩
  | .local _ .vmem, ⟨17, _⟩ => ⟨S32, .f32⟩
  | .local _ .vmem, ⟨18, _⟩ => ⟨S32x32, .f32⟩
  | .local _ .vmem, ⟨19, _⟩ => ⟨S32, .f32⟩
  | .local _ .vmem, ⟨20, _⟩ => ⟨S1x32, .f32⟩
  | .local _ .vmem, ⟨21, _⟩ => ⟨S1, .f32⟩
  | .local _ .vmem, ⟨22, _⟩ => ⟨S512x1, .f32⟩
  | .local _ .vmem, ⟨23, _⟩ => ⟨S512x1, .f32⟩
  | .local _ .vmem, ⟨24, _⟩ => ⟨S512x256, .f32⟩
  | .local _ .vmem, ⟨25, _⟩ => ⟨S512x256, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v31 : BitVec 1 := Scalar.cmpi .eq arg1 c9_i32
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x1_S512x1_0_0 : ∀ a, (![0, 0] : Fin 2 → Nat) a + S512x1.size a ≤ S512x1.size a
  h_S512x1 : 0 < S512x1.numel
  broadcasts_S512x1_S512x256 : S512x1.Broadcasts S512x256
  concatenates_S512x256_S512x256_S512x512_d1 : Shape.Concatenates [S512x256, S512x256] S512x512 1
  inb_S32x512_S32x512_0_0 : ∀ a, (![0, 0] : Fin 2 → Nat) a + S32x512.size a ≤ S32x512.size a
  h_S32x512 : 0 < S32x512.numel
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  dot_S512x2048_S256x2048_S512x256_1_1_0_0_n_n_wf : DotDims.WF S512x2048 S256x2048 S512x256 [1] [1] [0] [0] [] []
  dot_S512x512_S32x512_S512x32_1_1_0_0_n_n_wf : DotDims.WF S512x512 S32x512 S512x32 [1] [1] [0] [0] [] []
  dot_S512x32_S32x32_S512x32_1_1_0_0_n_n_wf : DotDims.WF S512x32 S32x32 S512x32 [1] [1] [0] [0] [] []
  dot_S512x32_S1x32_S512x1_1_1_0_0_n_n_wf : DotDims.WF S512x32 S1x32 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .f32 = 32 ∨ (Rect.block (s := S4096x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x20480.size a
  hwx0_1 : ∀ i : grid0.Coords, EltTy.bits .f32 = 32 ∨ (Rect.block (s := S4096x20480) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x20480.size a
  hwx0_2 : ∀ i : grid0.Coords, EltTy.bits .f32 = 32 ∨ (Rect.block (s := S4096x20480) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x40960.size a
  hwx0_3 : ∀ i : grid0.Coords, EltTy.bits .f32 = 32 ∨ (Rect.block (s := S256x40960) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S256x40960.size a
  hwx0_4 : ∀ i : grid0.Coords, EltTy.bits .f32 = 32 ∨ (Rect.block (s := S256x40960) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S256x40960.size a
  hwx0_5 : ∀ i : grid0.Coords, EltTy.bits .f32 = 32 ∨ (Rect.block (s := S256x40960) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S256x40960.size a
  hwx0_6 : ∀ i : grid0.Coords, EltTy.bits .f32 = 32 ∨ (Rect.block (s := S256x40960) S256x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x512.size a ≤ S32x512.size a
  hwx0_9 : ∀ i : grid0.Coords, EltTy.bits .f32 = 32 ∨ (Rect.block (s := S32x512) S32x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x32.size a ≤ S32x32.size a
  hwx0_11 : ∀ i : grid0.Coords, EltTy.bits .f32 = 32 ∨ (Rect.block (s := S32x32) S32x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32.size a ≤ S32.size a
  hwx0_12 : ∀ i : grid0.Coords, EltTy.bits .f32 = 32 ∨ (Rect.block (s := S32) S32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S4096x1.size a
  hwx0_15 : ∀ i : grid0.Coords, EltTy.bits .f32 = 32 ∨ (Rect.block (s := S4096x1) S512x1.size (cc0_transform_15 i) (hinb0_15 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x512_S32x512_S512x32_1_1_0_0_n_n : DotDims S512x512 S32x512 S512x32 where
  lhsContracting := [1]
  rhsContracting := [1]
  lhsNonContracting := [0]
  rhsNonContracting := [0]
  lhsBatch := []
  rhsBatch := []
  wf := dot_S512x512_S32x512_S512x32_1_1_0_0_n_n_wf
def dot_S512x32_S32x32_S512x32_1_1_0_0_n_n : DotDims S512x32 S32x32 S512x32 where
  lhsContracting := [1]
  rhsContracting := [1]
  lhsNonContracting := [0]
  rhsNonContracting := [0]
  lhsBatch := []
  rhsBatch := []
  wf := dot_S512x32_S32x32_S512x32_1_1_0_0_n_n_wf
def dot_S512x32_S1x32_S512x1_1_1_0_0_n_n : DotDims S512x32 S1x32 S512x1 where
  lhsContracting := [1]
  rhsContracting := [1]
  lhsNonContracting := [0]
  rhsNonContracting := [0]
  lhsBatch := []
  rhsBatch := []
  wf := dot_S512x32_S1x32_S512x1_1_1_0_0_n_n_wf

abbrev win0_0 : Pipeline.Window sig grid0 :=
  Pipeline.Window.ofSpec (Memref.whole main_arg0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S32x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S32x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S512x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S4096x1 : Shape := ⟨2, ![4096, 1]⟩
abbrev S4096x20480 : Shape := ⟨2, ![4096, 20480]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S4096x40960 : Shape := ⟨2, ![4096, 40960]⟩
abbrev S40960x256 : Shape := ⟨2, ![40960, 256]⟩
abbrev S4096x256 : Shape := ⟨2, ![4096, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x20480, .f32⟩
  | .hbm, ⟨2, _⟩ => ⟨S4096x20480, .f32⟩
  | .hbm, ⟨3, _⟩ => ⟨S256x40960, .f32⟩
  | .hbm, ⟨4, _⟩ => ⟨S256, .f32⟩
  | .hbm, ⟨5, _⟩ => ⟨S256x40960, .f32⟩
  | .hbm, ⟨6, _⟩ => ⟨S256, .f32⟩
  | .hbm, ⟨7, _⟩ => ⟨S32x512, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S4096x40960, .f32⟩
  | .hbm, ⟨14, _⟩ => ⟨S40960x256, .f32⟩
  | .hbm, ⟨15, _⟩ => ⟨S4096x256, .f32⟩
  | .hbm, ⟨16, _⟩ => ⟨S1x256, .f32⟩
  | .hbm, ⟨17, _⟩ => ⟨S4096x256, .f32⟩
  | .hbm, ⟨18, _⟩ => ⟨S4096x256, .f32⟩
  | .hbm, ⟨19, _⟩ => ⟨S4096x40960, .f32⟩
  | .hbm, ⟨20, _⟩ => ⟨S40960x256, .f32⟩
  | .hbm, ⟨21, _⟩ => ⟨S4096x256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S512x32, .f32⟩
  | .hbm, ⟨39, _⟩ => ⟨S4096x32, .f32⟩
  | .hbm, ⟨40, _⟩ => ⟨S1x32, .f32⟩
  | .hbm, ⟨41, _⟩ => ⟨S4096x32, .f32⟩
  | .hbm, ⟨42, _⟩ => ⟨S4096x32, .f32⟩
  | .hbm, ⟨43, _⟩ => ⟨S_, .f32⟩
  | .hbm, ⟨44, _⟩ => ⟨S4096x32, .f32⟩
  | .hbm, ⟨45, _⟩ => ⟨S4096x32, .f32⟩
  | .hbm, ⟨46, _⟩ => ⟨S32x32, .f32⟩
  | .hbm, ⟨47, _⟩ => ⟨S4096x32, .f32⟩
  | .hbm, ⟨48, _⟩ => ⟨S1x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096x32, .f32⟩
  | .hbm, ⟨53, _⟩ => ⟨S4096x32, .f32⟩
  | .hbm, ⟨54, _⟩ => ⟨S32x1, .f32⟩
  | .hbm, ⟨55, _⟩ => ⟨S4096x1, .f32⟩
  | .hbm, ⟨56, _⟩ => ⟨S1x1, .f32⟩
  | .hbm, ⟨57, _⟩ => ⟨S4096x1, .f32⟩
  | .hbm, ⟨58, _⟩ => ⟨S4096x1, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_cst : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call2_cst : Ref sig .tc := ⟨.hbm, 51, rfl⟩
abbrev main_call2_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  concatenates_S4096x20480_S4096x20480_S4096x40960_d1 : Shape.Concatenates [S4096x20480, S4096x20480] S4096x40960 1
  transposes_S256x40960_S40960x256_1_0 : S256x40960.Transposes [1, 0] S40960x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x1 : S_.BroadcastsInDim S4096x1 (![] : Fin 0 → Fin S4096x1.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x256_S4096x256_1_0_0_1_n_n_wf : DotDims.WF S4096x40960 S40960x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x40960_S40960x256_S4096x256_1_0_0_1_n_n : DotDims S4096x40960 S40960x256 S4096x256 where
  lhsContracting := [1]
  rhsContracting := [0]
  lhsNonContracting := [0]
  rhsNonContracting := [1]
  lhsBatch := []
  rhsBatch := []
  wf := dot_S4096x40960_S40960x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.KBase.lean ====
import proofs.«144363_j27049704030261_1_alg».proof.Proof.Gen.Kernel.Launch
import proofs.«144363_j27049704030261_1_alg».proof.Proof.Gen.Kernel.Skeleton
import proofs.«144363_j27049704030261_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s TensorCore buffer contents when the region is entered: the launch contents (no host operation precedes the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions, decided over the grid -/

/-- The first branch's condition from the grid coordinates: the reduction coordinate is the first tile. -/
abbrev condFirst (i : grid0.Coords) : Prop := (Scalar.cmpi .ne (Scalar.extui (Scalar.cmpi .eq (BitVec.ofNat 32 (i 1).val) 0#32)) 0#32) = 1#1
/-- The second branch's condition: the reduction coordinate is the last tile. -/
abbrev condLast (i : grid0.Coords) : Prop := k0_cond2 i = 1#1

/-- The first branch is taken exactly at the first of the ten reduction tiles of each batch tile. -/
theorem hcondFirst : ∀ t : Fin cfg0.N, condFirst (grid0.coords t) ↔ t.val % 10 = 0 :=
  (by decide +kernel : ∀ t : Fin grid0.N, condFirst (grid0.coords t) ↔ t.val % 10 = 0)
/-- The second branch is taken exactly at the last of them. -/
theorem hcondLast : ∀ t : Fin cfg0.N, condLast (grid0.coords t) ↔ t.val % 10 = 9 :=
  (by decide +kernel : ∀ t : Fin grid0.N, condLast (grid0.coords t) ↔ t.val % 10 = 9)

/-! ## Where the output window is idle, and when it is written back -/

theorem idleOut_of_not_last : ∀ t : Fin cfg0.N, ¬condLast (grid0.coords t) → cfg0.idle 15 (grid0.coords t) = true := by decide +kernel
theorem noFlushOut_of_not_last : ∀ t : Fin cfg0.N, ¬condLast (grid0.coords t) → (cfg0.win 15).flush t = false := by decide +kernel
theorem liveOut_of_last : ∀ t : Fin cfg0.N, condLast (grid0.coords t) → cfg0.idle 15 (grid0.coords t) = false := by decide +kernel

/-! ## The staging memrefs at a point, and the two accumulators -/

abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S32x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S32 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S32x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x32 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x1 .f32 := win0_15.stage (cfg0.slots t 15)
abbrev hs15 (t : Fin cfg0.N) : (ms15 t).IsWhole := hstage0_15 ((cfg0.slots t 15).cast nbuf0_15)
/-- The two accumulators: whole scoped buffers of the kernel's own, passed beside the windows. -/
abbrev scM0 : Memref sig .tc .vmem S512x256 .f32 := Memref.whole cc0_scratch0
abbrev scM1 : Memref sig .tc .vmem S512x256 .f32 := Memref.whole cc0_scratch1
abbrev VS0 : View sig .tc .vmem S512x256 .f32 := scM0.view
abbrev VS1 : View sig .tc .vmem S512x256 .f32 := scM1.view
/-- One staging buffer of the output window, through which its contents are stated. -/
abbrev VO : View sig .tc .vmem S512x1 .f32 := (Memref.whole cc0_stg15_0 : Memref sig .tc .vmem S512x1 .f32).view

/-- The kernel's scoped buffers beside the staging buffers, as the two accumulators owned at some contents. -/
theorem scopedRest_eq_acc (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

end Cert.Kernel.Hand

end
-- ==== Proof.KRunFirst.lean ====
import proofs.«144363_j27049704030261_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile (the first branch taken, the second not): the two accumulators, held at anything, are
    zeroed and then added to; the output's memref is handed back untouched. -/
noncomputable def runFirst (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : condFirst i) (hc1 : ¬condLast i)
    (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) :
    Σ' (LS0 : List (View.Piece (Elt F) S512x256 .f32)), { LS1 : List (View.Piece (Elt F) S512x256 .f32) //
      ∀ (xo : Vec F S512x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xo ∗ (∃ d, owns (c : Thread nD τ) arg18 fullShare d) ∗ (∃ d, owns (c : Thread nD τ) arg19 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xo ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xo E K => ?run⟩
  case run =>
    simp only [cc0__nnue_kernel_eq_skeleton]; unfold cc0__nnue_kernel_skel
    simp only [k0_part2_eq_skeleton]; unfold k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fo, %hfo, Ho⟩, ⟨%ds0, %fs0, -, HS0⟩, ⟨%ds1, %fs1, -, HS1⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    obtain rfl := harg17.eq_unread hfo
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [Ho]
    · iexists _; isplitr; · ipureintro; exact harg17.read_unread _
      iexact Ho
    isplitl [HS0]; · iexists _; iexact HS0
    iexists _; iexact HS1

end Cert.Kernel.Hand

end
-- ==== Proof.KRunMid.lean ====
import proofs.«144363_j27049704030261_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile (neither branch taken): on whole staging memrefs holding the input blocks, the
    output's memref at contents handed back untouched, and the two accumulators at what the tile before left,
    the body runs to the continuation with the inputs as they were and each accumulator with its stores written. -/
noncomputable def runMid (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : ¬condLast i)
    (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    Σ' (LS0 : List (View.Piece (Elt F) S512x256 .f32)), { LS1 : List (View.Piece (Elt F) S512x256 .f32) //
      ∀ (xo : Vec F S512x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xo ∗ owns (c : Thread nD τ) arg18 fullShare xs0 ∗ owns (c : Thread nD τ) arg19 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xo ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xo E K => ?run⟩
  case run =>
    simp only [cc0__nnue_kernel_eq_skeleton]; unfold cc0__nnue_kernel_skel
    simp only [k0_part2_eq_skeleton]; unfold k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fo, %hfo, Ho⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    obtain rfl := harg17.eq_unread hfo; obtain rfl := harg18.eq_unread hfs0; obtain rfl := harg19.eq_unread hfs1
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [Ho]
    · iexists _; isplitr; · ipureintro; exact harg17.read_unread _
      iexact Ho
    isplitl [HS0]; · iexists _; iexact HS0
    iexists _; iexact HS1

end Cert.Kernel.Hand

end
-- ==== Proof.KRunLast.lean ====
import proofs.«144363_j27049704030261_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a last tile (the second branch taken, the first not): the accumulators are added to, then read back
    with the biases, mixed by the side-to-move bit, clamped, and sent through the three layers into the output's
    memref, held at anything before. -/
noncomputable def runLast (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : condLast i)
    (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    Σ' (LO : List (View.Piece (Elt F) S512x1 .f32)) (LS0 : List (View.Piece (Elt F) S512x256 .f32)), { LS1 : List (View.Piece (Elt F) S512x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ owns (c : Thread nD τ) arg18 fullShare xs0 ∗ owns (c : Thread nD τ) arg19 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} arg17.view.writes (Elt F) f LO) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__nnue_kernel_eq_skeleton]; unfold cc0__nnue_kernel_skel
    simp only [k0_part2_eq_skeleton, k0_part1_eq_skeleton]; unfold k0_part2_skel k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%dout, %fo, -, Ho⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    obtain rfl := harg18.eq_unread hfs0; obtain rfl := harg19.eq_unread hfs1
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [Ho]; · iexists _; iexact Ho
    isplitl [HS0]; · iexists _; iexact HS0
    iexists _; iexact HS1

end Cert.Kernel.Hand

end
-- ==== Proof.KFrameA.lean ====
import proofs.«144363_j27049704030261_1_alg».proof.Proof.KRunFirst
import proofs.«144363_j27049704030261_1_alg».proof.Proof.KRunMid
import proofs.«144363_j27049704030261_1_alg».proof.Proof.KRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point, on the pipeline's memrefs and the point's blocks -/

/-- The first-tile run at point `t`. -/
def firstAt (c : Dev nD) (t : Fin cfg0.N) (h0 : t.val % 10 = 0) (h1 : ¬t.val % 10 = 9) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
/-- The middle-tile run at point `t`, the accumulators at `a0`, `a1`. -/
def midAt (c : Dev nD) (t : Fin cfg0.N) (h0 : ¬t.val % 10 = 0) (h1 : ¬t.val % 10 = 9) (a0 a1 : Vec F S512x256 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1
/-- The last-tile run at point `t`, the accumulators at `a0`, `a1`. -/
def lastAt (c : Dev nD) (t : Fin cfg0.N) (h0 : ¬t.val % 10 = 0) (h1 : t.val % 10 = 9) (a0 a1 : Vec F S512x256 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1

/-- Each run's stores into an accumulator tile it (one whole-buffer store last), so they cover it. -/
theorem coverFirst0 (c : Dev nD) (t : Fin cfg0.N) (h0 h1) (y : S512x256.Idx) : ∃ pc ∈ (firstAt m c t h0 h1).1, y ∈ pc.1.set :=
  View.cover_of_tiledL (firstAt m c t h0 h1).1 S512x256.size (by sl_kernel_rfl) y
theorem coverFirst1 (c : Dev nD) (t : Fin cfg0.N) (h0 h1) (y : S512x256.Idx) : ∃ pc ∈ (firstAt m c t h0 h1).2.1, y ∈ pc.1.set :=
  View.cover_of_tiledL (firstAt m c t h0 h1).2.1 S512x256.size (by sl_kernel_rfl) y
theorem coverMid0 (c : Dev nD) (t : Fin cfg0.N) (h0 h1) (a0 a1 : Vec F S512x256 .f32) (y : S512x256.Idx) : ∃ pc ∈ (midAt m c t h0 h1 a0 a1).1, y ∈ pc.1.set :=
  View.cover_of_tiledL (midAt m c t h0 h1 a0 a1).1 S512x256.size (by sl_kernel_rfl) y
theorem coverMid1 (c : Dev nD) (t : Fin cfg0.N) (h0 h1) (a0 a1 : Vec F S512x256 .f32) (y : S512x256.Idx) : ∃ pc ∈ (midAt m c t h0 h1 a0 a1).2.1, y ∈ pc.1.set :=
  View.cover_of_tiledL (midAt m c t h0 h1 a0 a1).2.1 S512x256.size (by sl_kernel_rfl) y
theorem coverLastO (c : Dev nD) (t : Fin cfg0.N) (h0 h1) (a0 a1 : Vec F S512x256 .f32) (y : S512x1.Idx) : ∃ pc ∈ (lastAt m c t h0 h1 a0 a1).1, y ∈ pc.1.set :=
  View.cover_of_tiledL (lastAt m c t h0 h1 a0 a1).1 S512x1.size (by sl_kernel_rfl) y
theorem coverLast0 (c : Dev nD) (t : Fin cfg0.N) (h0 h1) (a0 a1 : Vec F S512x256 .f32) (y : S512x256.Idx) : ∃ pc ∈ (lastAt m c t h0 h1 a0 a1).2.1, y ∈ pc.1.set :=
  View.cover_of_tiledL (lastAt m c t h0 h1 a0 a1).2.1 S512x256.size (by sl_kernel_rfl) y
theorem coverLast1 (c : Dev nD) (t : Fin cfg0.N) (h0 h1) (a0 a1 : Vec F S512x256 .f32) (y : S512x256.Idx) : ∃ pc ∈ (lastAt m c t h0 h1 a0 a1).2.2.1, y ∈ pc.1.set :=
  View.cover_of_tiledL (lastAt m c t h0 h1 a0 a1).2.2.1 S512x256.size (by sl_kernel_rfl) y

end Cert.Kernel.Hand

end
-- ==== Proof.KFrameB.lean ====
import proofs.«144363_j27049704030261_1_alg».proof.Proof.KFrameA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's buffer and the two accumulators hold after each point -/

/-- Contents nothing consults: the output's buffer at a point that stores nothing into it. -/
def noOut : Vec F S512x1 .f32 := View.canon (Val := Elt F) []

/-- After the body at position `n`: the output window's staging buffer, then the two accumulators — the case the
    reduction coordinate selects, run on the point's blocks and, past a first tile, on what position `n - 1` left
    in the accumulators. -/
def stAt (c : Dev nD) : (n : ℕ) → n < cfg0.N → Vec F S512x1 .f32 × Vec F S512x256 .f32 × Vec F S512x256 .f32
  | 0, hn => (noOut, View.canon (firstAt m c ⟨0, hn⟩ (Nat.zero_mod _) (show ¬(0 : ℕ) % 10 = 9 by decide)).1, View.canon (firstAt m c ⟨0, hn⟩ (Nat.zero_mod _) (show ¬(0 : ℕ) % 10 = 9 by decide)).2.1)
  | n + 1, hn =>
    if h0 : (n + 1) % 10 = 0 then
      (noOut, View.canon (firstAt m c ⟨n + 1, hn⟩ h0 (show ¬(n + 1) % 10 = 9 by omega)).1, View.canon (firstAt m c ⟨n + 1, hn⟩ h0 (show ¬(n + 1) % 10 = 9 by omega)).2.1)
    else if h1 : (n + 1) % 10 = 9 then
      (View.canon (lastAt m c ⟨n + 1, hn⟩ h0 h1 (stAt c n (Nat.lt_of_succ_lt hn)).2.1 (stAt c n (Nat.lt_of_succ_lt hn)).2.2).1,
       View.canon (lastAt m c ⟨n + 1, hn⟩ h0 h1 (stAt c n (Nat.lt_of_succ_lt hn)).2.1 (stAt c n (Nat.lt_of_succ_lt hn)).2.2).2.1,
       View.canon (lastAt m c ⟨n + 1, hn⟩ h0 h1 (stAt c n (Nat.lt_of_succ_lt hn)).2.1 (stAt c n (Nat.lt_of_succ_lt hn)).2.2).2.2.1)
    else
      (noOut,
       View.canon (midAt m c ⟨n + 1, hn⟩ h0 h1 (stAt c n (Nat.lt_of_succ_lt hn)).2.1 (stAt c n (Nat.lt_of_succ_lt hn)).2.2).1,
       View.canon (midAt m c ⟨n + 1, hn⟩ h0 h1 (stAt c n (Nat.lt_of_succ_lt hn)).2.1 (stAt c n (Nat.lt_of_succ_lt hn)).2.2).2.1)

/-- The state before point `t` past the first: what the point before left. -/
abbrev prevSt (c : Dev nD) (t : Fin cfg0.N) := stAt m c (t.val - 1) (Nat.lt_of_le_of_lt (Nat.sub_le _ _) t.isLt)

theorem stAt_first (c : Dev nD) (t : Fin cfg0.N) (h0 : t.val % 10 = 0) (h1 : ¬t.val % 10 = 9) :
    stAt m c t.val t.isLt = (noOut, View.canon (firstAt m c t h0 h1).1, View.canon (firstAt m c t h0 h1).2.1) := by
  obtain ⟨n, hn⟩ := t
  cases n with
  | zero => rfl
  | succ n => exact (dif_pos h0).trans rfl

theorem stAt_mid (c : Dev nD) (t : Fin cfg0.N) (h0 : ¬t.val % 10 = 0) (h1 : ¬t.val % 10 = 9) :
    stAt m c t.val t.isLt = (noOut, View.canon (midAt m c t h0 h1 (prevSt m c t).2.1 (prevSt m c t).2.2).1,
      View.canon (midAt m c t h0 h1 (prevSt m c t).2.1 (prevSt m c t).2.2).2.1) := by
  obtain ⟨n, hn⟩ := t
  cases n with
  | zero => exact absurd (Nat.zero_mod _) h0
  | succ n => exact (dif_neg h0).trans ((dif_neg h1).trans rfl)

theorem stAt_last (c : Dev nD) (t : Fin cfg0.N) (h0 : ¬t.val % 10 = 0) (h1 : t.val % 10 = 9) :
    stAt m c t.val t.isLt = (View.canon (lastAt m c t h0 h1 (prevSt m c t).2.1 (prevSt m c t).2.2).1,
      View.canon (lastAt m c t h0 h1 (prevSt m c t).2.1 (prevSt m c t).2.2).2.1,
      View.canon (lastAt m c t h0 h1 (prevSt m c t).2.1 (prevSt m c t).2.2).2.2.1) := by
  obtain ⟨n, hn⟩ := t
  cases n with
  | zero => exact absurd (Nat.zero_mod _) h0
  | succ n => exact (dif_neg h0).trans ((dif_pos h1).trans rfl)

/-! ## The region invariant: the two accumulators -/

/-- Before position `n`: at the region's entry the two accumulators at anything; afterwards at what the point
    before left in them. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (stAt m c n hn).2.1 ∗ owns (c : Thread nD τ) scM1 fullShare (stAt m c n hn).2.2)

theorem PhiS_succ (c : Dev nD) (n : ℕ) (hn : n < cfg0.N) :
    PhiS m c (n + 1) hn = iprop(owns (c : Thread nD τ) scM0 fullShare (stAt m c n hn).2.1 ∗ owns (c : Thread nD τ) scM1 fullShare (stAt m c n hn).2.2) := rfl

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl

theorem PhiS_pos (c : Dev nD) (n : ℕ) (h : n ≤ cfg0.N) (hz : n ≠ 0) :
    PhiS m c n h = iprop(owns (c : Thread nD τ) scM0 fullShare (stAt m c (n - 1) (by omega)).2.1 ∗ owns (c : Thread nD τ) scM1 fullShare (stAt m c (n - 1) (by omega)).2.2) := by
  cases n with
  | zero => exact absurd rfl hz
  | succ n => rfl

/-- Whatever the position, the invariant yields the accumulators at some contents. -/
theorem PhiS_any (c : Dev nD) (n : ℕ) (h : n ≤ cfg0.N) :
    PhiS m c n h ⊢ iprop((∃ d, owns (c : Thread nD τ) scM0 fullShare d) ∗ (∃ d, owns (c : Thread nD τ) scM1 fullShare d)) := by
  cases n with
  | zero => exact .rfl
  | succ n =>
    rw [PhiS_succ]
    iintro ⟨H0, H1⟩
    isplitl [H0]
    · iexists _; iexact H0
    · iexists _; iexact H1

/-! ## The pipeline's proof data -/

/-- The proof data on core `c`: the arrays as the region finds them; after the body each input's buffer at its
    block, the output's at `stAt`'s first component; the invariant the accumulators'; nothing owed; the two weight
    matrices, each read through two windows, held half and half, every other input outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (stAt m c t.val t.isLt).1
    | ⟨_ + 16, h⟩ => absurd h (Nat.not_lt.2 (Nat.le_add_left _ _))
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare.left
    | ⟨6, _⟩ => fullShare.right
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (stAt m c t.val t.isLt).1 := by dsimp only [dats]

/-- Each input's current staging buffer holds its block at every point, fetched there or not: the body leaves it
    in place, and an unfetched point has the block index of the point before. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after10]
theorem leaves11 (c : Dev nD) (t : Fin cfg0.N) : (dats m 0 c).leavesExact 11 t = owns (c : Thread nD τ) (ms11 t) fullShare (iblk m c 11 t) := by
  unfold Dat.leavesExact; rw [show cfg0.idle 11 (cfg0.grid.coords t) = false from rfl, after11]
theorem leaves12 (c : Dev nD) (t : Fin cfg0.N) : (dats m 0 c).leavesExact 12 t = owns (c : Thread nD τ) (ms12 t) fullShare (iblk m c 12 t) := by
  unfold Dat.leavesExact; rw [show cfg0.idle 12 (cfg0.grid.coords t) = false from rfl, after12]
theorem leaves13 (c : Dev nD) (t : Fin cfg0.N) : (dats m 0 c).leavesExact 13 t = owns (c : Thread nD τ) (ms13 t) fullShare (iblk m c 13 t) := by
  unfold Dat.leavesExact; rw [show cfg0.idle 13 (cfg0.grid.coords t) = false from rfl, after13]
theorem leaves14 (c : Dev nD) (t : Fin cfg0.N) : (dats m 0 c).leavesExact 14 t = owns (c : Thread nD τ) (ms14 t) fullShare (iblk m c 14 t) := by
  unfold Dat.leavesExact; rw [show cfg0.idle 14 (cfg0.grid.coords t) = false from rfl, after14]

end Cert.Kernel.Hand

end
-- ==== Proof.KFrame.lean ====
import proofs.«144363_j27049704030261_1_alg».proof.Proof.KFrameB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The body at any point: the inputs' memrefs hold their blocks; the reduction coordinate says which case the
    point is in; the invariant hands the body the accumulators at what the point before left (at anything on a first
    tile) and takes them back at this point's contents; the output's buffer is handed back as found except on a last
    tile, where the body's stores cover it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, leaves0, leaves1, leaves2, leaves3, leaves4, leaves5, leaves6, leaves7, leaves8, leaves9, leaves10, leaves11, leaves12, leaves13, leaves14]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 80 := lt_of_lt_of_eq t.isLt (show cfg0.N = 80 from N_0)
  by_cases h0 : t.val % 10 = 0
  · have h1 : ¬t.val % 10 = 9 := by omega
    rw [Dat.leavesExact_idle (dats m 0 c) 15 t (idleOut_of_not_last t (fun h => h1 ((hcondLast t).mp h))) (noFlushOut_of_not_last t (fun h => h1 ((hcondLast t).mp h)))]
    rw [stAt_first m c t h0 h1]
    by_cases hz : t.val = 0
    · rw [PhiS_zero m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((firstAt m c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1]
      · isplitl [HS0]
        · unfold owns; iexists _; isplitr
          swap; · iexact HS0
          ipureintro; exact View.read_writes_eq_canon _ _ _ (coverFirst0 m c t h0 h1)
        · unfold owns; iexists _; isplitr
          swap; · iexact HS1
          ipureintro; exact View.read_writes_eq_canon _ _ _ (coverFirst1 m c t h0 h1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
    · rw [PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((firstAt m c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1]
      · isplitl [HS0]
        · unfold owns; iexists _; isplitr
          swap; · iexact HS0
          ipureintro; exact View.read_writes_eq_canon _ _ _ (coverFirst0 m c t h0 h1)
        · unfold owns; iexists _; isplitr
          swap; · iexact HS1
          ipureintro; exact View.read_writes_eq_canon _ _ _ (coverFirst1 m c t h0 h1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
  · have hz : t.val ≠ 0 := fun e => h0 (by rw [e])
    rw [PhiS_pos m c _ _ hz]
    by_cases h1 : t.val % 10 = 9
    · rw [show (dats m 0 c).leavesExact 15 t = owns (c : Thread nD τ) (ms15 t) fullShare ((dats m 0 c).after 15 t) from by
        unfold Dat.leavesExact; rw [liveOut_of_last t ((hcondLast t).mpr h1)], after15]
      rw [stAt_last m c t h0 h1]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((lastAt m c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      iintro ⟨H0, H1, H2, H3, H4, H5, H6, H7, H8, H9, H10, H11, H12, H13, H14, ⟨%eo, H15⟩, ⟨%es0, HS0⟩, ⟨%es1, HS1⟩⟩
      isplitl [HS0 HS1]
      · isplitl [HS0]
        · unfold owns; iexists _; isplitr
          swap; · iexact HS0
          ipureintro; exact View.read_writes_eq_canon _ _ _ (coverLast0 m c t h0 h1 _ _)
        · unfold owns; iexists _; isplitr
          swap; · iexact HS1
          ipureintro; exact View.read_writes_eq_canon _ _ _ (coverLast1 m c t h0 h1 _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      unfold owns; iexists _; isplitr
      swap; · iexact H15
      ipureintro; exact View.read_writes_eq_canon _ _ _ (coverLastO m c t h0 h1 _ _)
    · rw [Dat.leavesExact_idle (dats m 0 c) 15 t (idleOut_of_not_last t (fun h => h1 ((hcondLast t).mp h))) (noFlushOut_of_not_last t (fun h => h1 ((hcondLast t).mp h)))]
      rw [stAt_mid m c t h0 h1]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((midAt m c t h0 h1 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1]
      · isplitl [HS0]
        · unfold owns; iexists _; isplitr
          swap; · iexact HS0
          ipureintro; exact View.read_writes_eq_canon _ _ _ (coverMid0 m c t h0 h1 _ _)
        · unfold owns; iexists _; isplitr
          swap; · iexact HS1
          ipureintro; exact View.read_writes_eq_canon _ _ _ (coverMid1 m c t h0 h1 _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KShare.lean ====
import proofs.«144363_j27049704030261_1_alg».proof.Proof.KFrameB
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## How the arrays' full shares are dealt among the windows -/

theorem share0 (c : Dev nD) : (dats m 0 c).share 0 = fullShare := rfl
theorem share1 (c : Dev nD) : (dats m 0 c).share 1 = fullShare := rfl
theorem share2 (c : Dev nD) : (dats m 0 c).share 2 = fullShare := rfl
theorem share3 (c : Dev nD) : (dats m 0 c).share 3 = fullShare.left := rfl
theorem share4 (c : Dev nD) : (dats m 0 c).share 4 = fullShare.right := rfl
theorem share5 (c : Dev nD) : (dats m 0 c).share 5 = fullShare.left := rfl
theorem share6 (c : Dev nD) : (dats m 0 c).share 6 = fullShare.right := rfl
theorem share7 (c : Dev nD) : (dats m 0 c).share 7 = fullShare := rfl
theorem share8 (c : Dev nD) : (dats m 0 c).share 8 = fullShare := rfl
theorem share9 (c : Dev nD) : (dats m 0 c).share 9 = fullShare := rfl
theorem share10 (c : Dev nD) : (dats m 0 c).share 10 = fullShare := rfl
theorem share11 (c : Dev nD) : (dats m 0 c).share 11 = fullShare := rfl
theorem share12 (c : Dev nD) : (dats m 0 c).share 12 = fullShare := rfl
theorem share13 (c : Dev nD) : (dats m 0 c).share 13 = fullShare := rfl
theorem share14 (c : Dev nD) : (dats m 0 c).share 14 = fullShare := rfl
theorem share15 (c : Dev nD) : (dats m 0 c).share 15 = fullShare := rfl

/-- The proof data's arrays, every array a whole buffer. -/
theorem arrays_whole (c : Dev nD) (Fn : (w : Fin cfg0.W) → Buf (Elt F) ((cfg0.win w).arr.view.loc (c.tc : Thread nD τ))) :
    (dats m 0 c).arrays Fn = bigSep Finset.univ fun w : Fin 16 => (((c.tc : Thread nD τ).loc (Pipeline.arrRef spec0 w)) ↦{(dats m 0 c).share w} Fn w : sProp 𝕄) := by
  unfold Dat.arrays
  exact bigSep_congr fun w _ => by rw [(arr_whole0 w).set_eq_univ]

/-- The fourteen distinct buffers behind the sixteen windows, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_arg7) ↦{fullShare} V m c main_arg7) ∗ (((c.tc : Thread nD τ).loc main_arg8) ↦{fullShare} V m c main_arg8) ∗ (((c.tc : Thread nD τ).loc main_arg9) ↦{fullShare} V m c main_arg9) ∗ (((c.tc : Thread nD τ).loc main_arg10) ↦{fullShare} V m c main_arg10) ∗ (((c.tc : Thread nD τ).loc main_arg11) ↦{fullShare} V m c main_arg11) ∗ (((c.tc : Thread nD τ).loc main_arg12) ↦{fullShare} V m c main_arg12) ∗ (((c.tc : Thread nD τ).loc main_v0) ↦{fullShare} V m c main_v0)) :=
  bigSep_eq_bigSepL_of_eq [main_arg0, main_arg1, main_arg2, main_arg3, main_arg4, main_arg5, main_arg6, main_arg7, main_arg8, main_arg9, main_arg10, main_arg11, main_arg12, main_v0] (by decide) (by decide) _

/-- The fourteen buffers behind the sixteen windows, each whole at the full share, make the proof data's arrays at
    entry: each weight matrix, read through a first-half and a second-half window, is split half and half between
    them; every other buffer goes to its one window outright. -/
theorem hsplit (c : Dev nD) :
    (Pipeline.arrBufs spec0 c (V m c) : sProp 𝕄) ⊢ (dats m 0 c).arrays ((dats m 0 c).arrAt · 0) := by
  rw [arrays_whole, bigSep_W0]
  simp only [share0, share1, share2, share3, share4, share5, share6, share7, share8, share9, share10, share11, share12, share13, share14, share15]
  rw [arrBufs_eq]
  iintro ⟨H0, H1, H2, H3, H4, H5, H6, H7, H8, H9, H10, H11, H12, Hv⟩
  ihave H3' := (pointsTo_share (PosShare.mem_left_op_right fullShare)).1 $$ H3
  icases H3' with ⟨H3l, H3r⟩
  ihave H5' := (pointsTo_share (PosShare.mem_left_op_right fullShare)).1 $$ H5
  icases H5' with ⟨H5l, H5r⟩
  isplitl [H0]; · iexact H0
  isplitl [H1]; · iexact H1
  isplitl [H2]; · iexact H2
  isplitl [H3l]; · iexact H3l
  isplitl [H3r]; · iexact H3r
  isplitl [H5l]; · iexact H5l
  isplitl [H5r]; · iexact H5r
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hv

end Cert.Kernel.Hand

end
-- ==== Proof.KRun.lean ====
import proofs.«144363_j27049704030261_1_alg».proof.Proof.KFrame
import proofs.«144363_j27049704030261_1_alg».proof.Proof.KShare
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- At any position the invariant yields the two accumulators at some contents. -/
theorem Phi_any (c : Dev nD) (t : Fin (cfg0.N + 1)) :
    (dats m 0 c).Φ t ⊢ iprop((∃ d, owns (c : Thread nD τ) scM0 fullShare d) ∗ (∃ d, owns (c : Thread nD τ) scM1 fullShare d)) := by
  rw [show (dats m 0 c).Φ t = PhiS m c t.val (Nat.le_of_lt_succ t.isLt) from rfl]
  exact PhiS_any m c _ _

set_option backward.isDefEq.respectTransparency.types false in
/-- From any memory with zero counters every weakly fair execution of @main terminates, and in every final state
    each window's array holds what the write-backs of the proof data leave in it. -/
theorem run_main : θ_run defs (onTc (τ := τ) (main (F := F))) (s₀ m ρ)
    (fun r => ∀ c : Dev nD, ∀ w : Fin 16, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main (fun _ => rfl))
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [scopedRest_eq_acc, show (dats m 0 c).Φ 0 = PhiS m c 0 (Nat.zero_le _) from rfl, PhiS_zero m c 0 _ rfl]
      iintro ⟨-, H⟩; iexact H)
    (hout := fun c => by
      rw [scopedRest_eq_acc]
      refine (Phi_any m c (Fin.last cfg0.N)).trans ?_
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-! ## The frame: the argument arrays end unchanged -/

/-- Argument 0, staged by input window 0, is never written: it ends at its launch contents. -/
theorem kept_arg0 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg0) = m ((c.tc : Thread nD τ).loc main_arg0) :=
  (h c 0).trans (((dats m 0 c).arrAt_in 0 rfl _).trans (A_eq m c 0))
/-- Argument 1, staged by input window 1, is never written: it ends at its launch contents. -/
theorem kept_arg1 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg1) = m ((c.tc : Thread nD τ).loc main_arg1) :=
  (h c 1).trans (((dats m 0 c).arrAt_in 1 rfl _).trans (A_eq m c 1))
/-- Argument 2, staged by input window 2, is never written: it ends at its launch contents. -/
theorem kept_arg2 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg2) = m ((c.tc : Thread nD τ).loc main_arg2) :=
  (h c 2).trans (((dats m 0 c).arrAt_in 2 rfl _).trans (A_eq m c 2))
/-- Argument 3, staged by input window 3, is never written: it ends at its launch contents. -/
theorem kept_arg3 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg3) = m ((c.tc : Thread nD τ).loc main_arg3) :=
  (h c 3).trans (((dats m 0 c).arrAt_in 3 rfl _).trans (A_eq m c 3))
/-- Argument 5, staged by input window 5, is never written: it ends at its launch contents. -/
theorem kept_arg5 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg5) = m ((c.tc : Thread nD τ).loc main_arg5) :=
  (h c 5).trans (((dats m 0 c).arrAt_in 5 rfl _).trans (A_eq m c 5))
/-- Argument 4, staged by input window 7, is never written: it ends at its launch contents. -/
theorem kept_arg4 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg4) = m ((c.tc : Thread nD τ).loc main_arg4) :=
  (h c 7).trans (((dats m 0 c).arrAt_in 7 rfl _).trans (A_eq m c 7))
/-- Argument 6, staged by input window 8, is never written: it ends at its launch contents. -/
theorem kept_arg6 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg6) = m ((c.tc : Thread nD τ).loc main_arg6) :=
  (h c 8).trans (((dats m 0 c).arrAt_in 8 rfl _).trans (A_eq m c 8))
/-- Argument 7, staged by input window 9, is never written: it ends at its launch contents. -/
theorem kept_arg7 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg7) = m ((c.tc : Thread nD τ).loc main_arg7) :=
  (h c 9).trans (((dats m 0 c).arrAt_in 9 rfl _).trans (A_eq m c 9))
/-- Argument 8, staged by input window 10, is never written: it ends at its launch contents. -/
theorem kept_arg8 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg8) = m ((c.tc : Thread nD τ).loc main_arg8) :=
  (h c 10).trans (((dats m 0 c).arrAt_in 10 rfl _).trans (A_eq m c 10))
/-- Argument 9, staged by input window 11, is never written: it ends at its launch contents. -/
theorem kept_arg9 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg9) = m ((c.tc : Thread nD τ).loc main_arg9) :=
  (h c 11).trans (((dats m 0 c).arrAt_in 11 rfl _).trans (A_eq m c 11))
/-- Argument 10, staged by input window 12, is never written: it ends at its launch contents. -/
theorem kept_arg10 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg10) = m ((c.tc : Thread nD τ).loc main_arg10) :=
  (h c 12).trans (((dats m 0 c).arrAt_in 12 rfl _).trans (A_eq m c 12))
/-- Argument 11, staged by input window 13, is never written: it ends at its launch contents. -/
theorem kept_arg11 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg11) = m ((c.tc : Thread nD τ).loc main_arg11) :=
  (h c 13).trans (((dats m 0 c).arrAt_in 13 rfl _).trans (A_eq m c 13))
/-- Argument 12, staged by input window 14, is never written: it ends at its launch contents. -/
theorem kept_arg12 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg12) = m ((c.tc : Thread nD τ).loc main_arg12) :=
  (h c 14).trans (((dats m 0 c).arrAt_in 14 rfl _).trans (A_eq m c 14))

/-- THE FRAME: every weakly fair execution terminates, nothing faults, and the thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨kept_arg0 m c r h, kept_arg1 m c r h, kept_arg2 m c r h, kept_arg3 m c r h, kept_arg4 m c r h, kept_arg5 m c r h, kept_arg6 m c r h, kept_arg7 m c r h, kept_arg8 m c r h, kept_arg9 m c r h, kept_arg10 m c r h, kept_arg11 m c r h, kept_arg12 m c r h⟩) (run_main m ρ)

end Cert.Kernel.Hand

end
-- ==== Proof.KIBase.lean ====
import proofs.«144363_j27049704030261_1_alg».proof.Proof.Gen.KernelIdeal.Launch
import proofs.«144363_j27049704030261_1_alg».proof.Proof.Gen.KernelIdeal.Skeleton
import proofs.«144363_j27049704030261_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s TensorCore buffer contents when the region is entered: the launch contents (no host operation precedes the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions, decided over the grid -/

/-- The first branch's condition from the grid coordinates: the reduction coordinate is the first tile. -/
abbrev condFirst (i : grid0.Coords) : Prop := (Scalar.cmpi .ne (Scalar.extui (Scalar.cmpi .eq (BitVec.ofNat 32 (i 1).val) 0#32)) 0#32) = 1#1
/-- The second branch's condition: the reduction coordinate is the last tile. -/
abbrev condLast (i : grid0.Coords) : Prop := k0_cond2 i = 1#1

/-- The first branch is taken exactly at the first of the ten reduction tiles of each batch tile. -/
theorem hcondFirst : ∀ t : Fin cfg0.N, condFirst (grid0.coords t) ↔ t.val % 10 = 0 :=
  (by decide +kernel : ∀ t : Fin grid0.N, condFirst (grid0.coords t) ↔ t.val % 10 = 0)
/-- The second branch is taken exactly at the last of them. -/
theorem hcondLast : ∀ t : Fin cfg0.N, condLast (grid0.coords t) ↔ t.val % 10 = 9 :=
  (by decide +kernel : ∀ t : Fin grid0.N, condLast (grid0.coords t) ↔ t.val % 10 = 9)

/-! ## Where the output window is idle, and when it is written back -/

theorem idleOut_of_not_last : ∀ t : Fin cfg0.N, ¬condLast (grid0.coords t) → cfg0.idle 15 (grid0.coords t) = true := by decide +kernel
theorem noFlushOut_of_not_last : ∀ t : Fin cfg0.N, ¬condLast (grid0.coords t) → (cfg0.win 15).flush t = false := by decide +kernel
theorem liveOut_of_last : ∀ t : Fin cfg0.N, condLast (grid0.coords t) → cfg0.idle 15 (grid0.coords t) = false := by decide +kernel

/-! ## The staging memrefs at a point, and the two accumulators -/

abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S32x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S32 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S32x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x32 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x1 .f32 := win0_15.stage (cfg0.slots t 15)
abbrev hs15 (t : Fin cfg0.N) : (ms15 t).IsWhole := hstage0_15 ((cfg0.slots t 15).cast nbuf0_15)
/-- The two accumulators: whole scoped buffers of the kernel's own, passed beside the windows. -/
abbrev scM0 : Memref sig .tc .vmem S512x256 .f32 := Memref.whole cc0_scratch0
abbrev scM1 : Memref sig .tc .vmem S512x256 .f32 := Memref.whole cc0_scratch1
abbrev VS0 : View sig .tc .vmem S512x256 .f32 := scM0.view
abbrev VS1 : View sig .tc .vmem S512x256 .f32 := scM1.view
/-- One staging buffer of the output window, through which its contents are stated. -/
abbrev VO : View sig .tc .vmem S512x1 .f32 := (Memref.whole cc0_stg15_0 : Memref sig .tc .vmem S512x1 .f32).view

/-- The kernel's scoped buffers beside the staging buffers, as the two accumulators owned at some contents. -/
theorem scopedRest_eq_acc (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

end Cert.KernelIdeal.Hand

end
-- ==== Proof.KIRunFirst.lean ====
import proofs.«144363_j27049704030261_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first tile (the first branch taken, the second not): the two accumulators, held at anything, are
    zeroed and then added to; the output's memref is handed back untouched. -/
noncomputable def runFirst (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : condFirst i) (hc1 : ¬condLast i)
    (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) :
    Σ' (LS0 : List (View.Piece (Elt F) S512x256 .f32)), { LS1 : List (View.Piece (Elt F) S512x256 .f32) //
      ∀ (xo : Vec F S512x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xo ∗ (∃ d, owns (c : Thread nD τ) arg18 fullShare d) ∗ (∃ d, owns (c : Thread nD τ) arg19 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xo ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xo E K => ?run⟩
  case run =>
    simp only [cc0__nnue_kernel_eq_skeleton]; unfold cc0__nnue_kernel_skel
    simp only [k0_part2_eq_skeleton]; unfold k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fo, %hfo, Ho⟩, ⟨%ds0, %fs0, -, HS0⟩, ⟨%ds1, %fs1, -, HS1⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    obtain rfl := harg17.eq_unread hfo
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [Ho]
    · iexists _; isplitr; · ipureintro; exact harg17.read_unread _
      iexact Ho
    isplitl [HS0]; · iexists _; iexact HS0
    iexists _; iexact HS1

end Cert.KernelIdeal.Hand

end
-- ==== Proof.KIRunMid.lean ====
import proofs.«144363_j27049704030261_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile (neither branch taken): on whole staging memrefs holding the input blocks, the
    output's memref at contents handed back untouched, and the two accumulators at what the tile before left,
    the body runs to the continuation with the inputs as they were and each accumulator with its stores written. -/
noncomputable def runMid (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : ¬condLast i)
    (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    Σ' (LS0 : List (View.Piece (Elt F) S512x256 .f32)), { LS1 : List (View.Piece (Elt F) S512x256 .f32) //
      ∀ (xo : Vec F S512x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xo ∗ owns (c : Thread nD τ) arg18 fullShare xs0 ∗ owns (c : Thread nD τ) arg19 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare xo ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xo E K => ?run⟩
  case run =>
    simp only [cc0__nnue_kernel_eq_skeleton]; unfold cc0__nnue_kernel_skel
    simp only [k0_part2_eq_skeleton]; unfold k0_part2_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fo, %hfo, Ho⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    obtain rfl := harg17.eq_unread hfo; obtain rfl := harg18.eq_unread hfs0; obtain rfl := harg19.eq_unread hfs1
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [Ho]
    · iexists _; isplitr; · ipureintro; exact harg17.read_unread _
      iexact Ho
    isplitl [HS0]; · iexists _; iexact HS0
    iexists _; iexact HS1

end Cert.KernelIdeal.Hand

end
-- ==== Proof.KIRunLast.lean ====
import proofs.«144363_j27049704030261_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a last tile (the second branch taken, the first not): the accumulators are added to, then read back
    with the biases, mixed by the side-to-move bit, clamped, and sent through the three layers into the output's
    memref, held at anything before. -/
noncomputable def runLast (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : condLast i)
    (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    Σ' (LO : List (View.Piece (Elt F) S512x1 .f32)) (LS0 : List (View.Piece (Elt F) S512x256 .f32)), { LS1 : List (View.Piece (Elt F) S512x256 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ owns (c : Thread nD τ) arg18 fullShare xs0 ∗ owns (c : Thread nD τ) arg19 fullShare xs1
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} arg17.view.writes (Elt F) f LO) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__nnue_kernel_eq_skeleton]; unfold cc0__nnue_kernel_skel
    simp only [k0_part2_eq_skeleton, k0_part1_eq_skeleton]; unfold k0_part2_skel k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%dout, %fo, -, Ho⟩, ⟨%fs0, %hfs0, HS0⟩, ⟨%fs1, %hfs1, HS1⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    obtain rfl := harg18.eq_unread hfs0; obtain rfl := harg19.eq_unread hfs1
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [Ho]; · iexists _; iexact Ho
    isplitl [HS0]; · iexists _; iexact HS0
    iexists _; iexact HS1

end Cert.KernelIdeal.Hand

end
-- ==== Proof.KIFrameA.lean ====
import proofs.«144363_j27049704030261_1_alg».proof.Proof.KIRunFirst
import proofs.«144363_j27049704030261_1_alg».proof.Proof.KIRunMid
import proofs.«144363_j27049704030261_1_alg».proof.Proof.KIRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point, on the pipeline's memrefs and the point's blocks -/

/-- The first-tile run at point `t`. -/
def firstAt (c : Dev nD) (t : Fin cfg0.N) (h0 : t.val % 10 = 0) (h1 : ¬t.val % 10 = 9) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
/-- The middle-tile run at point `t`, the accumulators at `a0`, `a1`. -/
def midAt (c : Dev nD) (t : Fin cfg0.N) (h0 : ¬t.val % 10 = 0) (h1 : ¬t.val % 10 = 9) (a0 a1 : Vec F S512x256 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1
/-- The last-tile run at point `t`, the accumulators at `a0`, `a1`. -/
def lastAt (c : Dev nD) (t : Fin cfg0.N) (h0 : ¬t.val % 10 = 0) (h1 : t.val % 10 = 9) (a0 a1 : Vec F S512x256 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1

/-- Each run's stores into an accumulator tile it (one whole-buffer store last), so they cover it. -/
theorem coverFirst0 (c : Dev nD) (t : Fin cfg0.N) (h0 h1) (y : S512x256.Idx) : ∃ pc ∈ (firstAt m c t h0 h1).1, y ∈ pc.1.set :=
  View.cover_of_tiledL (firstAt m c t h0 h1).1 S512x256.size (by sl_kernel_rfl) y
theorem coverFirst1 (c : Dev nD) (t : Fin cfg0.N) (h0 h1) (y : S512x256.Idx) : ∃ pc ∈ (firstAt m c t h0 h1).2.1, y ∈ pc.1.set :=
  View.cover_of_tiledL (firstAt m c t h0 h1).2.1 S512x256.size (by sl_kernel_rfl) y
theorem coverMid0 (c : Dev nD) (t : Fin cfg0.N) (h0 h1) (a0 a1 : Vec F S512x256 .f32) (y : S512x256.Idx) : ∃ pc ∈ (midAt m c t h0 h1 a0 a1).1, y ∈ pc.1.set :=
  View.cover_of_tiledL (midAt m c t h0 h1 a0 a1).1 S512x256.size (by sl_kernel_rfl) y
theorem coverMid1 (c : Dev nD) (t : Fin cfg0.N) (h0 h1) (a0 a1 : Vec F S512x256 .f32) (y : S512x256.Idx) : ∃ pc ∈ (midAt m c t h0 h1 a0 a1).2.1, y ∈ pc.1.set :=
  View.cover_of_tiledL (midAt m c t h0 h1 a0 a1).2.1 S512x256.size (by sl_kernel_rfl) y
theorem coverLastO (c : Dev nD) (t : Fin cfg0.N) (h0 h1) (a0 a1 : Vec F S512x256 .f32) (y : S512x1.Idx) : ∃ pc ∈ (lastAt m c t h0 h1 a0 a1).1, y ∈ pc.1.set :=
  View.cover_of_tiledL (lastAt m c t h0 h1 a0 a1).1 S512x1.size (by sl_kernel_rfl) y
theorem coverLast0 (c : Dev nD) (t : Fin cfg0.N) (h0 h1) (a0 a1 : Vec F S512x256 .f32) (y : S512x256.Idx) : ∃ pc ∈ (lastAt m c t h0 h1 a0 a1).2.1, y ∈ pc.1.set :=
  View.cover_of_tiledL (lastAt m c t h0 h1 a0 a1).2.1 S512x256.size (by sl_kernel_rfl) y
theorem coverLast1 (c : Dev nD) (t : Fin cfg0.N) (h0 h1) (a0 a1 : Vec F S512x256 .f32) (y : S512x256.Idx) : ∃ pc ∈ (lastAt m c t h0 h1 a0 a1).2.2.1, y ∈ pc.1.set :=
  View.cover_of_tiledL (lastAt m c t h0 h1 a0 a1).2.2.1 S512x256.size (by sl_kernel_rfl) y

end Cert.KernelIdeal.Hand

end
-- ==== Proof.KIFrameB.lean ====
import proofs.«144363_j27049704030261_1_alg».proof.Proof.KIFrameA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's buffer and the two accumulators hold after each point -/

/-- Contents nothing consults: the output's buffer at a point that stores nothing into it. -/
def noOut : Vec F S512x1 .f32 := View.canon (Val := Elt F) []

/-- After the body at position `n`: the output window's staging buffer, then the two accumulators — the case the
    reduction coordinate selects, run on the point's blocks and, past a first tile, on what position `n - 1` left
    in the accumulators. -/
def stAt (c : Dev nD) : (n : ℕ) → n < cfg0.N → Vec F S512x1 .f32 × Vec F S512x256 .f32 × Vec F S512x256 .f32
  | 0, hn => (noOut, View.canon (firstAt m c ⟨0, hn⟩ (Nat.zero_mod _) (show ¬(0 : ℕ) % 10 = 9 by decide)).1, View.canon (firstAt m c ⟨0, hn⟩ (Nat.zero_mod _) (show ¬(0 : ℕ) % 10 = 9 by decide)).2.1)
  | n + 1, hn =>
    if h0 : (n + 1) % 10 = 0 then
      (noOut, View.canon (firstAt m c ⟨n + 1, hn⟩ h0 (show ¬(n + 1) % 10 = 9 by omega)).1, View.canon (firstAt m c ⟨n + 1, hn⟩ h0 (show ¬(n + 1) % 10 = 9 by omega)).2.1)
    else if h1 : (n + 1) % 10 = 9 then
      (View.canon (lastAt m c ⟨n + 1, hn⟩ h0 h1 (stAt c n (Nat.lt_of_succ_lt hn)).2.1 (stAt c n (Nat.lt_of_succ_lt hn)).2.2).1,
       View.canon (lastAt m c ⟨n + 1, hn⟩ h0 h1 (stAt c n (Nat.lt_of_succ_lt hn)).2.1 (stAt c n (Nat.lt_of_succ_lt hn)).2.2).2.1,
       View.canon (lastAt m c ⟨n + 1, hn⟩ h0 h1 (stAt c n (Nat.lt_of_succ_lt hn)).2.1 (stAt c n (Nat.lt_of_succ_lt hn)).2.2).2.2.1)
    else
      (noOut,
       View.canon (midAt m c ⟨n + 1, hn⟩ h0 h1 (stAt c n (Nat.lt_of_succ_lt hn)).2.1 (stAt c n (Nat.lt_of_succ_lt hn)).2.2).1,
       View.canon (midAt m c ⟨n + 1, hn⟩ h0 h1 (stAt c n (Nat.lt_of_succ_lt hn)).2.1 (stAt c n (Nat.lt_of_succ_lt hn)).2.2).2.1)

/-- The state before point `t` past the first: what the point before left. -/
abbrev prevSt (c : Dev nD) (t : Fin cfg0.N) := stAt m c (t.val - 1) (Nat.lt_of_le_of_lt (Nat.sub_le _ _) t.isLt)

theorem stAt_first (c : Dev nD) (t : Fin cfg0.N) (h0 : t.val % 10 = 0) (h1 : ¬t.val % 10 = 9) :
    stAt m c t.val t.isLt = (noOut, View.canon (firstAt m c t h0 h1).1, View.canon (firstAt m c t h0 h1).2.1) := by
  obtain ⟨n, hn⟩ := t
  cases n with
  | zero => rfl
  | succ n => exact (dif_pos h0).trans rfl

theorem stAt_mid (c : Dev nD) (t : Fin cfg0.N) (h0 : ¬t.val % 10 = 0) (h1 : ¬t.val % 10 = 9) :
    stAt m c t.val t.isLt = (noOut, View.canon (midAt m c t h0 h1 (prevSt m c t).2.1 (prevSt m c t).2.2).1,
      View.canon (midAt m c t h0 h1 (prevSt m c t).2.1 (prevSt m c t).2.2).2.1) := by
  obtain ⟨n, hn⟩ := t
  cases n with
  | zero => exact absurd (Nat.zero_mod _) h0
  | succ n => exact (dif_neg h0).trans ((dif_neg h1).trans rfl)

theorem stAt_last (c : Dev nD) (t : Fin cfg0.N) (h0 : ¬t.val % 10 = 0) (h1 : t.val % 10 = 9) :
    stAt m c t.val t.isLt = (View.canon (lastAt m c t h0 h1 (prevSt m c t).2.1 (prevSt m c t).2.2).1,
      View.canon (lastAt m c t h0 h1 (prevSt m c t).2.1 (prevSt m c t).2.2).2.1,
      View.canon (lastAt m c t h0 h1 (prevSt m c t).2.1 (prevSt m c t).2.2).2.2.1) := by
  obtain ⟨n, hn⟩ := t
  cases n with
  | zero => exact absurd (Nat.zero_mod _) h0
  | succ n => exact (dif_neg h0).trans ((dif_pos h1).trans rfl)

/-! ## The region invariant: the two accumulators -/

/-- Before position `n`: at the region's entry the two accumulators at anything; afterwards at what the point
    before left in them. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (stAt m c n hn).2.1 ∗ owns (c : Thread nD τ) scM1 fullShare (stAt m c n hn).2.2)

theorem PhiS_succ (c : Dev nD) (n : ℕ) (hn : n < cfg0.N) :
    PhiS m c (n + 1) hn = iprop(owns (c : Thread nD τ) scM0 fullShare (stAt m c n hn).2.1 ∗ owns (c : Thread nD τ) scM1 fullShare (stAt m c n hn).2.2) := rfl

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl

theorem PhiS_pos (c : Dev nD) (n : ℕ) (h : n ≤ cfg0.N) (hz : n ≠ 0) :
    PhiS m c n h = iprop(owns (c : Thread nD τ) scM0 fullShare (stAt m c (n - 1) (by omega)).2.1 ∗ owns (c : Thread nD τ) scM1 fullShare (stAt m c (n - 1) (by omega)).2.2) := by
  cases n with
  | zero => exact absurd rfl hz
  | succ n => rfl

/-- Whatever the position, the invariant yields the accumulators at some contents. -/
theorem PhiS_any (c : Dev nD) (n : ℕ) (h : n ≤ cfg0.N) :
    PhiS m c n h ⊢ iprop((∃ d, owns (c : Thread nD τ) scM0 fullShare d) ∗ (∃ d, owns (c : Thread nD τ) scM1 fullShare d)) := by
  cases n with
  | zero => exact .rfl
  | succ n =>
    rw [PhiS_succ]
    iintro ⟨H0, H1⟩
    isplitl [H0]
    · iexists _; iexact H0
    · iexists _; iexact H1

/-! ## The pipeline's proof data -/

/-- The proof data on core `c`: the arrays as the region finds them; after the body each input's buffer at its
    block, the output's at `stAt`'s first component; the invariant the accumulators'; nothing owed; the two weight
    matrices, each read through two windows, held half and half, every other input outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (stAt m c t.val t.isLt).1
    | ⟨_ + 16, h⟩ => absurd h (Nat.not_lt.2 (Nat.le_add_left _ _))
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare.left
    | ⟨6, _⟩ => fullShare.right
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (stAt m c t.val t.isLt).1 := by dsimp only [dats]

/-- Each input's current staging buffer holds its block at every point, fetched there or not: the body leaves it
    in place, and an unfetched point has the block index of the point before. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after10]
theorem leaves11 (c : Dev nD) (t : Fin cfg0.N) : (dats m 0 c).leavesExact 11 t = owns (c : Thread nD τ) (ms11 t) fullShare (iblk m c 11 t) := by
  unfold Dat.leavesExact; rw [show cfg0.idle 11 (cfg0.grid.coords t) = false from rfl, after11]
theorem leaves12 (c : Dev nD) (t : Fin cfg0.N) : (dats m 0 c).leavesExact 12 t = owns (c : Thread nD τ) (ms12 t) fullShare (iblk m c 12 t) := by
  unfold Dat.leavesExact; rw [show cfg0.idle 12 (cfg0.grid.coords t) = false from rfl, after12]
theorem leaves13 (c : Dev nD) (t : Fin cfg0.N) : (dats m 0 c).leavesExact 13 t = owns (c : Thread nD τ) (ms13 t) fullShare (iblk m c 13 t) := by
  unfold Dat.leavesExact; rw [show cfg0.idle 13 (cfg0.grid.coords t) = false from rfl, after13]
theorem leaves14 (c : Dev nD) (t : Fin cfg0.N) : (dats m 0 c).leavesExact 14 t = owns (c : Thread nD τ) (ms14 t) fullShare (iblk m c 14 t) := by
  unfold Dat.leavesExact; rw [show cfg0.idle 14 (cfg0.grid.coords t) = false from rfl, after14]

end Cert.KernelIdeal.Hand

end
-- ==== Proof.KIFrame.lean ====
import proofs.«144363_j27049704030261_1_alg».proof.Proof.KIFrameB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The body at any point: the inputs' memrefs hold their blocks; the reduction coordinate says which case the
    point is in; the invariant hands the body the accumulators at what the point before left (at anything on a first
    tile) and takes them back at this point's contents; the output's buffer is handed back as found except on a last
    tile, where the body's stores cover it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, leaves0, leaves1, leaves2, leaves3, leaves4, leaves5, leaves6, leaves7, leaves8, leaves9, leaves10, leaves11, leaves12, leaves13, leaves14]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 80 := lt_of_lt_of_eq t.isLt (show cfg0.N = 80 from N_0)
  by_cases h0 : t.val % 10 = 0
  · have h1 : ¬t.val % 10 = 9 := by omega
    rw [Dat.leavesExact_idle (dats m 0 c) 15 t (idleOut_of_not_last t (fun h => h1 ((hcondLast t).mp h))) (noFlushOut_of_not_last t (fun h => h1 ((hcondLast t).mp h)))]
    rw [stAt_first m c t h0 h1]
    by_cases hz : t.val = 0
    · rw [PhiS_zero m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((firstAt m c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1]
      · isplitl [HS0]
        · unfold owns; iexists _; isplitr
          swap; · iexact HS0
          ipureintro; exact View.read_writes_eq_canon _ _ _ (coverFirst0 m c t h0 h1)
        · unfold owns; iexists _; isplitr
          swap; · iexact HS1
          ipureintro; exact View.read_writes_eq_canon _ _ _ (coverFirst1 m c t h0 h1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
    · rw [PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((firstAt m c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1]
      · isplitl [HS0]
        · unfold owns; iexists _; isplitr
          swap; · iexact HS0
          ipureintro; exact View.read_writes_eq_canon _ _ _ (coverFirst0 m c t h0 h1)
        · unfold owns; iexists _; isplitr
          swap; · iexact HS1
          ipureintro; exact View.read_writes_eq_canon _ _ _ (coverFirst1 m c t h0 h1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15
  · have hz : t.val ≠ 0 := fun e => h0 (by rw [e])
    rw [PhiS_pos m c _ _ hz]
    by_cases h1 : t.val % 10 = 9
    · rw [show (dats m 0 c).leavesExact 15 t = owns (c : Thread nD τ) (ms15 t) fullShare ((dats m 0 c).after 15 t) from by
        unfold Dat.leavesExact; rw [liveOut_of_last t ((hcondLast t).mpr h1)], after15]
      rw [stAt_last m c t h0 h1]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((lastAt m c t h0 h1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      iintro ⟨H0, H1, H2, H3, H4, H5, H6, H7, H8, H9, H10, H11, H12, H13, H14, ⟨%eo, H15⟩, ⟨%es0, HS0⟩, ⟨%es1, HS1⟩⟩
      isplitl [HS0 HS1]
      · isplitl [HS0]
        · unfold owns; iexists _; isplitr
          swap; · iexact HS0
          ipureintro; exact View.read_writes_eq_canon _ _ _ (coverLast0 m c t h0 h1 _ _)
        · unfold owns; iexists _; isplitr
          swap; · iexact HS1
          ipureintro; exact View.read_writes_eq_canon _ _ _ (coverLast1 m c t h0 h1 _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      unfold owns; iexists _; isplitr
      swap; · iexact H15
      ipureintro; exact View.read_writes_eq_canon _ _ _ (coverLastO m c t h0 h1 _ _)
    · rw [Dat.leavesExact_idle (dats m 0 c) 15 t (idleOut_of_not_last t (fun h => h1 ((hcondLast t).mp h))) (noFlushOut_of_not_last t (fun h => h1 ((hcondLast t).mp h)))]
      rw [stAt_mid m c t h0 h1]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((midAt m c t h0 h1 _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1]
      · isplitl [HS0]
        · unfold owns; iexists _; isplitr
          swap; · iexact HS0
          ipureintro; exact View.read_writes_eq_canon _ _ _ (coverMid0 m c t h0 h1 _ _)
        · unfold owns; iexists _; isplitr
          swap; · iexact HS1
          ipureintro; exact View.read_writes_eq_canon _ _ _ (coverMid1 m c t h0 h1 _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIShare.lean ====
import proofs.«144363_j27049704030261_1_alg».proof.Proof.KIFrameB
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## How the arrays' full shares are dealt among the windows -/

theorem share0 (c : Dev nD) : (dats m 0 c).share 0 = fullShare := rfl
theorem share1 (c : Dev nD) : (dats m 0 c).share 1 = fullShare := rfl
theorem share2 (c : Dev nD) : (dats m 0 c).share 2 = fullShare := rfl
theorem share3 (c : Dev nD) : (dats m 0 c).share 3 = fullShare.left := rfl
theorem share4 (c : Dev nD) : (dats m 0 c).share 4 = fullShare.right := rfl
theorem share5 (c : Dev nD) : (dats m 0 c).share 5 = fullShare.left := rfl
theorem share6 (c : Dev nD) : (dats m 0 c).share 6 = fullShare.right := rfl
theorem share7 (c : Dev nD) : (dats m 0 c).share 7 = fullShare := rfl
theorem share8 (c : Dev nD) : (dats m 0 c).share 8 = fullShare := rfl
theorem share9 (c : Dev nD) : (dats m 0 c).share 9 = fullShare := rfl
theorem share10 (c : Dev nD) : (dats m 0 c).share 10 = fullShare := rfl
theorem share11 (c : Dev nD) : (dats m 0 c).share 11 = fullShare := rfl
theorem share12 (c : Dev nD) : (dats m 0 c).share 12 = fullShare := rfl
theorem share13 (c : Dev nD) : (dats m 0 c).share 13 = fullShare := rfl
theorem share14 (c : Dev nD) : (dats m 0 c).share 14 = fullShare := rfl
theorem share15 (c : Dev nD) : (dats m 0 c).share 15 = fullShare := rfl

/-- The proof data's arrays, every array a whole buffer. -/
theorem arrays_whole (c : Dev nD) (Fn : (w : Fin cfg0.W) → Buf (Elt F) ((cfg0.win w).arr.view.loc (c.tc : Thread nD τ))) :
    (dats m 0 c).arrays Fn = bigSep Finset.univ fun w : Fin 16 => (((c.tc : Thread nD τ).loc (Pipeline.arrRef spec0 w)) ↦{(dats m 0 c).share w} Fn w : sProp 𝕄) := by
  unfold Dat.arrays
  exact bigSep_congr fun w _ => by rw [(arr_whole0 w).set_eq_univ]

/-- The fourteen distinct buffers behind the sixteen windows, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_arg7) ↦{fullShare} V m c main_arg7) ∗ (((c.tc : Thread nD τ).loc main_arg8) ↦{fullShare} V m c main_arg8) ∗ (((c.tc : Thread nD τ).loc main_arg9) ↦{fullShare} V m c main_arg9) ∗ (((c.tc : Thread nD τ).loc main_arg10) ↦{fullShare} V m c main_arg10) ∗ (((c.tc : Thread nD τ).loc main_arg11) ↦{fullShare} V m c main_arg11) ∗ (((c.tc : Thread nD τ).loc main_arg12) ↦{fullShare} V m c main_arg12) ∗ (((c.tc : Thread nD τ).loc main_v0) ↦{fullShare} V m c main_v0)) :=
  bigSep_eq_bigSepL_of_eq [main_arg0, main_arg1, main_arg2, main_arg3, main_arg4, main_arg5, main_arg6, main_arg7, main_arg8, main_arg9, main_arg10, main_arg11, main_arg12, main_v0] (by decide) (by decide) _

/-- The fourteen buffers behind the sixteen windows, each whole at the full share, make the proof data's arrays at
    entry: each weight matrix, read through a first-half and a second-half window, is split half and half between
    them; every other buffer goes to its one window outright. -/
theorem hsplit (c : Dev nD) :
    (Pipeline.arrBufs spec0 c (V m c) : sProp 𝕄) ⊢ (dats m 0 c).arrays ((dats m 0 c).arrAt · 0) := by
  rw [arrays_whole, bigSep_W0]
  simp only [share0, share1, share2, share3, share4, share5, share6, share7, share8, share9, share10, share11, share12, share13, share14, share15]
  rw [arrBufs_eq]
  iintro ⟨H0, H1, H2, H3, H4, H5, H6, H7, H8, H9, H10, H11, H12, Hv⟩
  ihave H3' := (pointsTo_share (PosShare.mem_left_op_right fullShare)).1 $$ H3
  icases H3' with ⟨H3l, H3r⟩
  ihave H5' := (pointsTo_share (PosShare.mem_left_op_right fullShare)).1 $$ H5
  icases H5' with ⟨H5l, H5r⟩
  isplitl [H0]; · iexact H0
  isplitl [H1]; · iexact H1
  isplitl [H2]; · iexact H2
  isplitl [H3l]; · iexact H3l
  isplitl [H3r]; · iexact H3r
  isplitl [H5l]; · iexact H5l
  isplitl [H5r]; · iexact H5r
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hv

end Cert.KernelIdeal.Hand

end
-- ==== Proof.KIRun.lean ====
import proofs.«144363_j27049704030261_1_alg».proof.Proof.KIFrame
import proofs.«144363_j27049704030261_1_alg».proof.Proof.KIShare
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- At any position the invariant yields the two accumulators at some contents. -/
theorem Phi_any (c : Dev nD) (t : Fin (cfg0.N + 1)) :
    (dats m 0 c).Φ t ⊢ iprop((∃ d, owns (c : Thread nD τ) scM0 fullShare d) ∗ (∃ d, owns (c : Thread nD τ) scM1 fullShare d)) := by
  rw [show (dats m 0 c).Φ t = PhiS m c t.val (Nat.le_of_lt_succ t.isLt) from rfl]
  exact PhiS_any m c _ _

set_option backward.isDefEq.respectTransparency.types false in
/-- From any memory with zero counters every weakly fair execution of @main terminates, and in every final state
    each window's array holds what the write-backs of the proof data leave in it. -/
theorem run_main : θ_run defs (onTc (τ := τ) (main (F := F))) (s₀ m ρ)
    (fun r => ∀ c : Dev nD, ∀ w : Fin 16, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main (fun _ => rfl))
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [scopedRest_eq_acc, show (dats m 0 c).Φ 0 = PhiS m c 0 (Nat.zero_le _) from rfl, PhiS_zero m c 0 _ rfl]
      iintro ⟨-, H⟩; iexact H)
    (hout := fun c => by
      rw [scopedRest_eq_acc]
      refine (Phi_any m c (Fin.last cfg0.N)).trans ?_
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-! ## The frame: the argument arrays end unchanged -/

/-- Argument 0, staged by input window 0, is never written: it ends at its launch contents. -/
theorem kept_arg0 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg0) = m ((c.tc : Thread nD τ).loc main_arg0) :=
  (h c 0).trans (((dats m 0 c).arrAt_in 0 rfl _).trans (A_eq m c 0))
/-- Argument 1, staged by input window 1, is never written: it ends at its launch contents. -/
theorem kept_arg1 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg1) = m ((c.tc : Thread nD τ).loc main_arg1) :=
  (h c 1).trans (((dats m 0 c).arrAt_in 1 rfl _).trans (A_eq m c 1))
/-- Argument 2, staged by input window 2, is never written: it ends at its launch contents. -/
theorem kept_arg2 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg2) = m ((c.tc : Thread nD τ).loc main_arg2) :=
  (h c 2).trans (((dats m 0 c).arrAt_in 2 rfl _).trans (A_eq m c 2))
/-- Argument 3, staged by input window 3, is never written: it ends at its launch contents. -/
theorem kept_arg3 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg3) = m ((c.tc : Thread nD τ).loc main_arg3) :=
  (h c 3).trans (((dats m 0 c).arrAt_in 3 rfl _).trans (A_eq m c 3))
/-- Argument 5, staged by input window 5, is never written: it ends at its launch contents. -/
theorem kept_arg5 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg5) = m ((c.tc : Thread nD τ).loc main_arg5) :=
  (h c 5).trans (((dats m 0 c).arrAt_in 5 rfl _).trans (A_eq m c 5))
/-- Argument 4, staged by input window 7, is never written: it ends at its launch contents. -/
theorem kept_arg4 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg4) = m ((c.tc : Thread nD τ).loc main_arg4) :=
  (h c 7).trans (((dats m 0 c).arrAt_in 7 rfl _).trans (A_eq m c 7))
/-- Argument 6, staged by input window 8, is never written: it ends at its launch contents. -/
theorem kept_arg6 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg6) = m ((c.tc : Thread nD τ).loc main_arg6) :=
  (h c 8).trans (((dats m 0 c).arrAt_in 8 rfl _).trans (A_eq m c 8))
/-- Argument 7, staged by input window 9, is never written: it ends at its launch contents. -/
theorem kept_arg7 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg7) = m ((c.tc : Thread nD τ).loc main_arg7) :=
  (h c 9).trans (((dats m 0 c).arrAt_in 9 rfl _).trans (A_eq m c 9))
/-- Argument 8, staged by input window 10, is never written: it ends at its launch contents. -/
theorem kept_arg8 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg8) = m ((c.tc : Thread nD τ).loc main_arg8) :=
  (h c 10).trans (((dats m 0 c).arrAt_in 10 rfl _).trans (A_eq m c 10))
/-- Argument 9, staged by input window 11, is never written: it ends at its launch contents. -/
theorem kept_arg9 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg9) = m ((c.tc : Thread nD τ).loc main_arg9) :=
  (h c 11).trans (((dats m 0 c).arrAt_in 11 rfl _).trans (A_eq m c 11))
/-- Argument 10, staged by input window 12, is never written: it ends at its launch contents. -/
theorem kept_arg10 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg10) = m ((c.tc : Thread nD τ).loc main_arg10) :=
  (h c 12).trans (((dats m 0 c).arrAt_in 12 rfl _).trans (A_eq m c 12))
/-- Argument 11, staged by input window 13, is never written: it ends at its launch contents. -/
theorem kept_arg11 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg11) = m ((c.tc : Thread nD τ).loc main_arg11) :=
  (h c 13).trans (((dats m 0 c).arrAt_in 13 rfl _).trans (A_eq m c 13))
/-- Argument 12, staged by input window 14, is never written: it ends at its launch contents. -/
theorem kept_arg12 (c : Dev nD) (r : PUnit × MemSt nD τ sig (Elt F))
    (h : ∀ c : Dev nD, ∀ w : Fin 16, r.2.mem ((spec0 w).arr.view.loc (c.tc : Thread nD τ)) = (dats m 0 c).arrAt w cfg0.N) :
    r.2.mem ((c.tc : Thread nD τ).loc main_arg12) = m ((c.tc : Thread nD τ).loc main_arg12) :=
  (h c 14).trans (((dats m 0 c).arrAt_in 14 rfl _).trans (A_eq m c 14))

/-- THE FRAME: every weakly fair execution terminates, nothing faults, and the thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨kept_arg0 m c r h, kept_arg1 m c r h, kept_arg2 m c r h, kept_arg3 m c r h, kept_arg4 m c r h, kept_arg5 m c r h, kept_arg6 m c r h, kept_arg7 m c r h, kept_arg8 m c r h, kept_arg9 m c r h, kept_arg10 m c r h, kept_arg11 m c r h, kept_arg12 m c r h⟩) (run_main m ρ)

end Cert.KernelIdeal.Hand

end
-- ==== Proof.KIPieces.lean ====
/-
  What the body's stores leave, read back as values.

  Each control case of the body leaves in an accumulator (and, at a last tile, in the output column) a list of
  stores, every one of them through the whole buffer at offset zero. The contents such a list leaves are the
  payload of its last store; a load through the whole buffer reads the buffer's contents, and a load of what
  one whole store just left reads that store's payload. So each accumulator ends a tile holding the tile's
  step applied to what it held before — the zero matrix on a first tile, where it is cleared first and read
  back —, and the output column ends a last tile holding the network's tail applied to the two finished
  accumulators.
-/
import proofs.«144363_j27049704030261_1_alg».proof.Proof.KIRunFirst
import proofs.«144363_j27049704030261_1_alg».proof.Proof.KIRunMid
import proofs.«144363_j27049704030261_1_alg».proof.Proof.KIRunLast
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets `(0, 0)` are zero on every axis. -/
theorem hz2 : (![0, 0] : Fin 2 → Nat) = fun _ => 0 := funext fun a => by fin_cases a <;> rfl
/-- The offset `(0)` is zero on its one axis. -/
theorem hz1 : (![0] : Fin 1 → Nat) = fun _ => 0 := funext fun a => by fin_cases a <;> rfl

/-! ## A first tile: the accumulators cleared, read back, and added to -/

/-- The first accumulator after a first tile: the tile's step from the cleared accumulator. -/
theorem canonFirst0 (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : condFirst i) (hc1 : ¬condLast i) (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) :
    View.canon (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x8 x9 x10 x11 x12 x13 x14 x15 x16).1 = k0_pay9 x3 x4 x5 x6 (k0_pay5 (F := F)) := by
  unfold runFirst
  dsimp only
  sl_unfold_words
  rw [View.canon_cons_unit_zero (S := S512x256) hz2, View.readCov_unit_zero (S := S512x256) _ hz2]
  simp only [View.readAt_eq_ld, harg3.read_unread, harg4.read_unread, harg5.read_unread, harg6.read_unread,
    View.ld_unit_zero (S := S512x2048) hz2, View.ld_unit_zero (S := S256x2048) hz2]

/-- The second accumulator after a first tile: the tile's step from the cleared accumulator. -/
theorem canonFirst1 (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : condFirst i) (hc1 : ¬condLast i) (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) :
    View.canon (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x8 x9 x10 x11 x12 x13 x14 x15 x16).2.1 = k0_pay1 (k0_pay10 x3 x4 x7 x8 (k0_pay6 (F := F))) := by
  unfold runFirst
  dsimp only
  sl_unfold_words
  rw [View.canon_cons_unit_zero (S := S512x256) hz2, View.readCov_unit_zero (S := S512x256) _ hz2]
  simp only [View.readAt_eq_ld, harg3.read_unread, harg4.read_unread, harg7.read_unread, harg8.read_unread,
    View.ld_unit_zero (S := S512x2048) hz2, View.ld_unit_zero (S := S256x2048) hz2]

/-! ## A middle tile: the accumulators added to -/

/-- The first accumulator after a middle tile: the tile's step from what it held. -/
theorem canonMid0 (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : ¬condLast i) (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    View.canon (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x8 x9 x10 x11 x12 x13 x14 x15 x16 xs0 xs1).1 = k0_pay9 x3 x4 x5 x6 xs0 := by
  unfold runMid
  dsimp only
  sl_unfold_words
  rw [View.canon_unit_zero (S := S512x256) hz2]
  simp only [View.readAt_eq_ld, harg3.read_unread, harg4.read_unread, harg5.read_unread, harg6.read_unread, harg18.read_unread,
    View.ld_unit_zero (S := S512x2048) hz2, View.ld_unit_zero (S := S256x2048) hz2, View.ld_unit_zero (S := S512x256) hz2]

/-- The second accumulator after a middle tile: the tile's step from what it held. -/
theorem canonMid1 (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : ¬condLast i) (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    View.canon (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x8 x9 x10 x11 x12 x13 x14 x15 x16 xs0 xs1).2.1 = k0_pay1 (k0_pay10 x3 x4 x7 x8 xs1) := by
  unfold runMid
  dsimp only
  sl_unfold_words
  rw [View.canon_unit_zero (S := S512x256) hz2]
  simp only [View.readAt_eq_ld, harg3.read_unread, harg4.read_unread, harg7.read_unread, harg8.read_unread, harg19.read_unread,
    View.ld_unit_zero (S := S512x2048) hz2, View.ld_unit_zero (S := S256x2048) hz2, View.ld_unit_zero (S := S512x256) hz2]

/-! ## A last tile: the accumulators added to, then read back into the network's tail -/

/-- The first accumulator after a last tile: the tile's step from what it held. -/
theorem canonLast0 (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : condLast i) (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    View.canon (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x8 x9 x10 x11 x12 x13 x14 x15 x16 xs0 xs1).2.1 = k0_pay9 x3 x4 x5 x6 xs0 := by
  unfold runLast
  dsimp only
  sl_unfold_words
  dsimp only
  rw [View.canon_unit_zero (S := S512x256) hz2]
  simp only [View.readAt_eq_ld, harg3.read_unread, harg4.read_unread, harg5.read_unread, harg6.read_unread, harg18.read_unread,
    View.ld_unit_zero (S := S512x2048) hz2, View.ld_unit_zero (S := S256x2048) hz2, View.ld_unit_zero (S := S512x256) hz2]

/-- The second accumulator after a last tile: the tile's step from what it held. -/
theorem canonLast1 (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : condLast i) (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    View.canon (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x8 x9 x10 x11 x12 x13 x14 x15 x16 xs0 xs1).2.2.1 = k0_pay1 (k0_pay10 x3 x4 x7 x8 xs1) := by
  unfold runLast
  dsimp only
  sl_unfold_words
  dsimp only
  rw [View.canon_unit_zero (S := S512x256) hz2]
  simp only [View.readAt_eq_ld, harg3.read_unread, harg4.read_unread, harg7.read_unread, harg8.read_unread, harg19.read_unread,
    View.ld_unit_zero (S := S512x2048) hz2, View.ld_unit_zero (S := S256x2048) hz2, View.ld_unit_zero (S := S512x256) hz2]

/-- The output column after a last tile: the network's tail over the two accumulators as the tile's steps left them. -/
theorem canonLastO (c : Dev nD) (i : grid0.Coords) (arg2 : Memref sig .tc .vmem S512x1 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256 .f32) (harg9 : arg9.IsWhole) (arg10 : Memref sig .tc .vmem S256 .f32) (harg10 : arg10.IsWhole) (arg11 : Memref sig .tc .vmem S32x512 .f32) (harg11 : arg11.IsWhole) (arg12 : Memref sig .tc .vmem S32 .f32) (harg12 : arg12.IsWhole) (arg13 : Memref sig .tc .vmem S32x32 .f32) (harg13 : arg13.IsWhole) (arg14 : Memref sig .tc .vmem S32 .f32) (harg14 : arg14.IsWhole) (arg15 : Memref sig .tc .vmem S1x32 .f32) (harg15 : arg15.IsWhole) (arg16 : Memref sig .tc .vmem S1 .f32) (harg16 : arg16.IsWhole) (arg17 : Memref sig .tc .vmem S512x1 .f32) (harg17 : arg17.IsWhole) (arg18 : Memref sig .tc .vmem S512x256 .f32) (harg18 : arg18.IsWhole) (arg19 : Memref sig .tc .vmem S512x256 .f32) (harg19 : arg19.IsWhole) (hc0 : ¬condFirst i) (hc1 : condLast i) (x2 : Vec F S512x1 .f32) (x3 : Vec F S512x2048 .f32) (x4 : Vec F S512x2048 .f32) (x5 : Vec F S256x2048 .f32) (x6 : Vec F S256x2048 .f32) (x7 : Vec F S256x2048 .f32) (x8 : Vec F S256x2048 .f32) (x9 : Vec F S256 .f32) (x10 : Vec F S256 .f32) (x11 : Vec F S32x512 .f32) (x12 : Vec F S32 .f32) (x13 : Vec F S32x32 .f32) (x14 : Vec F S32 .f32) (x15 : Vec F S1x32 .f32) (x16 : Vec F S1 .f32) (xs0 xs1 : Vec F S512x256 .f32) :
    View.canon (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x8 x9 x10 x11 x12 x13 x14 x15 x16 xs0 xs1).1
      = k0_pay2 (k0_pay3 (k0_pay9 x3 x4 x5 x6 xs0) x9 (k0_pay1 (k0_pay10 x3 x4 x7 x8 xs1)) x10 x2 x11 x12 x13) (k0_pay4 x14) x15 x16 := by
  unfold runLast
  dsimp only
  sl_unfold_words
  dsimp only
  rw [View.canon_unit_zero (S := S512x1) hz2]
  simp only [View.readCov_unit_zero (S := S512x256) _ hz2]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg18.read_unread, harg19.read_unread,
    View.ld_unit_zero (S := S512x2048) hz2, View.ld_unit_zero (S := S256x2048) hz2, View.ld_unit_zero (S := S512x256) hz2,
    View.ld_unit_zero (S := S512x1) hz2, View.ld_unit_zero (S := S32x512) hz2, View.ld_unit_zero (S := S32x32) hz2,
    View.ld_unit_zero (S := S1x32) hz2, View.ld_unit_zero (S := S256) hz1, View.ld_unit_zero (S := S32) hz1,
    View.ld_unit_zero (S := S1) hz1]

end Cert.KernelIdeal.Hand

end
-- ==== Proof.KIBlocks.lean ====
/-
  The windows' blocks as pieces of the argument arrays.

  The grid has eighty points: point `t` works on batch tile `t / 10` (512 positions) and reduction tile `t % 10`
  (2048 feature columns). A window's block at a point is its array read through a rectangle whose corner, on each
  axis, is the window's block index times the block's extent. Below, each input window's block is read entry by
  entry as the argument array at explicit coordinates: the side-to-move column and the two feature arrays by batch
  tile (and reduction tile), the two halves of each weight matrix by reduction tile in the first 20480 columns and
  in the last 20480, and the small arrays whole. For the output window: which rows a point's block holds, and that
  the blocks of the points that write back (the last reduction tile of each batch tile) cover all 4096 rows.
-/
import proofs.«144363_j27049704030261_1_alg».proof.Proof.KIBase
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The grid's size, and the coordinates' ranges -/

/-- A grid point's number is below eighty. -/
theorem pt_lt (t : Fin cfg0.N) : t.val < 80 := t.isLt.trans_eq N_0

/-- Row `p` of batch tile `t / 10` is one of the 4096 rows. -/
theorem row_lt (t : Fin cfg0.N) (p : Fin 512) : (t.val / 10) * 512 + p.val < 4096 := by
  have h := pt_lt t; omega
/-- Column `j` of reduction tile `t % 10` is one of a half's 20480 columns. -/
theorem col_lt (t : Fin cfg0.N) (j : Fin 2048) : (t.val % 10) * 2048 + j.val < 20480 := by omega
/-- The same column, in the first half of the 40960 weight columns. -/
theorem colLo_lt (t : Fin cfg0.N) (j : Fin 2048) : (t.val % 10) * 2048 + j.val < 40960 := by omega
/-- The same column, in the second half of the 40960 weight columns. -/
theorem colHi_lt (t : Fin cfg0.N) (j : Fin 2048) : 20480 + ((t.val % 10) * 2048 + j.val) < 40960 := by omega

/-! ## The index maps, decided once over the grid -/

theorem idx0 : ∀ t : Fin cfg0.N, win0_0.index t (0 : Fin 2) = t.val / 10 ∧ win0_0.index t (1 : Fin 2) = 0 :=
  (by decide +kernel : ∀ t : Fin grid0.N, _)
theorem idx1 : ∀ t : Fin cfg0.N, win0_1.index t (0 : Fin 2) = t.val / 10 ∧ win0_1.index t (1 : Fin 2) = t.val % 10 :=
  (by decide +kernel : ∀ t : Fin grid0.N, _)
theorem idx2 : ∀ t : Fin cfg0.N, win0_2.index t (0 : Fin 2) = t.val / 10 ∧ win0_2.index t (1 : Fin 2) = t.val % 10 :=
  (by decide +kernel : ∀ t : Fin grid0.N, _)
theorem idx3 : ∀ t : Fin cfg0.N, win0_3.index t (0 : Fin 2) = 0 ∧ win0_3.index t (1 : Fin 2) = t.val % 10 :=
  (by decide +kernel : ∀ t : Fin grid0.N, _)
theorem idx4 : ∀ t : Fin cfg0.N, win0_4.index t (0 : Fin 2) = 0 ∧ win0_4.index t (1 : Fin 2) = t.val % 10 + 10 :=
  (by decide +kernel : ∀ t : Fin grid0.N, _)
theorem idx5 : ∀ t : Fin cfg0.N, win0_5.index t (0 : Fin 2) = 0 ∧ win0_5.index t (1 : Fin 2) = t.val % 10 :=
  (by decide +kernel : ∀ t : Fin grid0.N, _)
theorem idx6 : ∀ t : Fin cfg0.N, win0_6.index t (0 : Fin 2) = 0 ∧ win0_6.index t (1 : Fin 2) = t.val % 10 + 10 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)
/-- The output window's block index: the batch tile, and the one column block. -/
theorem idx15 : ∀ t : Fin cfg0.N, win0_15.index t (0 : Fin 2) = t.val / 10 ∧ win0_15.index t (1 : Fin 2) = 0 :=
  (by decide +kernel : ∀ t : Fin grid0.N, _)

/-! ## The batch-tiled inputs -/

/-- The side-to-move block: the rows of batch tile `t / 10` of the one column. -/
theorem blk0_apply (c : Dev nD) (t : Fin cfg0.N) (p : Fin 512) :
    (iblk m c 0 t : Vec F S512x1 .f32) (ix2 p 0)
      = (V m c main_arg0 : S4096x1.Idx → Elt F .f32) (ix2 ⟨(t.val / 10) * 512 + p.val, row_lt t p⟩ 0) := by
  obtain ⟨e0, e1⟩ := idx0 t
  unfold iblk
  rw [View.read_apply]
  show (V m c main_arg0 : S4096x1.Idx → Elt F .f32) _ = (V m c main_arg0 : S4096x1.Idx → Elt F .f32) _
  refine congrArg (V m c main_arg0 : S4096x1.Idx → Elt F .f32) (funext fun a => Fin.ext ?_)
  match a with
  | ⟨0, _⟩ => show win0_0.index t (0 : Fin 2) * 512 + 1 * p.val = (t.val / 10) * 512 + p.val; rw [e0]; omega
  | ⟨1, _⟩ => show win0_0.index t (1 : Fin 2) * 1 + 1 * 0 = 0; rw [e1]

/-- A block of the first feature array: the rows of batch tile `t / 10`, the columns of reduction tile `t % 10`. -/
theorem blk1_apply (c : Dev nD) (t : Fin cfg0.N) (p : Fin 512) (j : Fin 2048) :
    (iblk m c 1 t : Vec F S512x2048 .f32) (ix2 p j)
      = (V m c main_arg1 : S4096x20480.Idx → Elt F .f32)
          (ix2 ⟨(t.val / 10) * 512 + p.val, row_lt t p⟩ ⟨(t.val % 10) * 2048 + j.val, col_lt t j⟩) := by
  obtain ⟨e0, e1⟩ := idx1 t
  unfold iblk
  rw [View.read_apply]
  show (V m c main_arg1 : S4096x20480.Idx → Elt F .f32) _ = (V m c main_arg1 : S4096x20480.Idx → Elt F .f32) _
  refine congrArg (V m c main_arg1 : S4096x20480.Idx → Elt F .f32) (funext fun a => Fin.ext ?_)
  match a with
  | ⟨0, _⟩ => show win0_1.index t (0 : Fin 2) * 512 + 1 * p.val = (t.val / 10) * 512 + p.val; rw [e0]; omega
  | ⟨1, _⟩ => show win0_1.index t (1 : Fin 2) * 2048 + 1 * j.val = (t.val % 10) * 2048 + j.val; rw [e1]; omega

/-- A block of the second feature array: the same rows and columns. -/
theorem blk2_apply (c : Dev nD) (t : Fin cfg0.N) (p : Fin 512) (j : Fin 2048) :
    (iblk m c 2 t : Vec F S512x2048 .f32) (ix2 p j)
      = (V m c main_arg2 : S4096x20480.Idx → Elt F .f32)
          (ix2 ⟨(t.val / 10) * 512 + p.val, row_lt t p⟩ ⟨(t.val % 10) * 2048 + j.val, col_lt t j⟩) := by
  obtain ⟨e0, e1⟩ := idx2 t
  unfold iblk
  rw [View.read_apply]
  show (V m c main_arg2 : S4096x20480.Idx → Elt F .f32) _ = (V m c main_arg2 : S4096x20480.Idx → Elt F .f32) _
  refine congrArg (V m c main_arg2 : S4096x20480.Idx → Elt F .f32) (funext fun a => Fin.ext ?_)
  match a with
  | ⟨0, _⟩ => show win0_2.index t (0 : Fin 2) * 512 + 1 * p.val = (t.val / 10) * 512 + p.val; rw [e0]; omega
  | ⟨1, _⟩ => show win0_2.index t (1 : Fin 2) * 2048 + 1 * j.val = (t.val % 10) * 2048 + j.val; rw [e1]; omega

/-! ## The weight halves, by reduction tile -/

/-- The first weights, first half: all 256 rows, the columns of reduction tile `t % 10` among the first 20480. -/
theorem blk3_apply (c : Dev nD) (t : Fin cfg0.N) (q : Fin 256) (j : Fin 2048) :
    (iblk m c 3 t : Vec F S256x2048 .f32) (ix2 q j)
      = (V m c main_arg3 : S256x40960.Idx → Elt F .f32)
          (ix2 q ⟨(t.val % 10) * 2048 + j.val, colLo_lt t j⟩) := by
  obtain ⟨e0, e1⟩ := idx3 t
  unfold iblk
  rw [View.read_apply]
  show (V m c main_arg3 : S256x40960.Idx → Elt F .f32) _ = (V m c main_arg3 : S256x40960.Idx → Elt F .f32) _
  refine congrArg (V m c main_arg3 : S256x40960.Idx → Elt F .f32) (funext fun a => Fin.ext ?_)
  match a with
  | ⟨0, _⟩ => show win0_3.index t (0 : Fin 2) * 256 + 1 * q.val = q.val; rw [e0]; omega
  | ⟨1, _⟩ => show win0_3.index t (1 : Fin 2) * 2048 + 1 * j.val = (t.val % 10) * 2048 + j.val; rw [e1]; omega

/-- The first weights, second half: the same columns among the last 20480. -/
theorem blk4_apply (c : Dev nD) (t : Fin cfg0.N) (q : Fin 256) (j : Fin 2048) :
    (iblk m c 4 t : Vec F S256x2048 .f32) (ix2 q j)
      = (V m c main_arg3 : S256x40960.Idx → Elt F .f32)
          (ix2 q ⟨20480 + ((t.val % 10) * 2048 + j.val), colHi_lt t j⟩) := by
  obtain ⟨e0, e1⟩ := idx4 t
  unfold iblk
  rw [View.read_apply]
  show (V m c main_arg3 : S256x40960.Idx → Elt F .f32) _ = (V m c main_arg3 : S256x40960.Idx → Elt F .f32) _
  refine congrArg (V m c main_arg3 : S256x40960.Idx → Elt F .f32) (funext fun a => Fin.ext ?_)
  match a with
  | ⟨0, _⟩ => show win0_4.index t (0 : Fin 2) * 256 + 1 * q.val = q.val; rw [e0]; omega
  | ⟨1, _⟩ => show win0_4.index t (1 : Fin 2) * 2048 + 1 * j.val = 20480 + ((t.val % 10) * 2048 + j.val); rw [e1]; omega

/-- The second weights, first half. -/
theorem blk5_apply (c : Dev nD) (t : Fin cfg0.N) (q : Fin 256) (j : Fin 2048) :
    (iblk m c 5 t : Vec F S256x2048 .f32) (ix2 q j)
      = (V m c main_arg5 : S256x40960.Idx → Elt F .f32)
          (ix2 q ⟨(t.val % 10) * 2048 + j.val, colLo_lt t j⟩) := by
  obtain ⟨e0, e1⟩ := idx5 t
  unfold iblk
  rw [View.read_apply]
  show (V m c main_arg5 : S256x40960.Idx → Elt F .f32) _ = (V m c main_arg5 : S256x40960.Idx → Elt F .f32) _
  refine congrArg (V m c main_arg5 : S256x40960.Idx → Elt F .f32) (funext fun a => Fin.ext ?_)
  match a with
  | ⟨0, _⟩ => show win0_5.index t (0 : Fin 2) * 256 + 1 * q.val = q.val; rw [e0]; omega
  | ⟨1, _⟩ => show win0_5.index t (1 : Fin 2) * 2048 + 1 * j.val = (t.val % 10) * 2048 + j.val; rw [e1]; omega

/-- The second weights, second half. -/
theorem blk6_apply (c : Dev nD) (t : Fin cfg0.N) (q : Fin 256) (j : Fin 2048) :
    (iblk m c 6 t : Vec F S256x2048 .f32) (ix2 q j)
      = (V m c main_arg5 : S256x40960.Idx → Elt F .f32)
          (ix2 q ⟨20480 + ((t.val % 10) * 2048 + j.val), colHi_lt t j⟩) := by
  obtain ⟨e0, e1⟩ := idx6 t
  unfold iblk
  rw [View.read_apply]
  show (V m c main_arg5 : S256x40960.Idx → Elt F .f32) _ = (V m c main_arg5 : S256x40960.Idx → Elt F .f32) _
  refine congrArg (V m c main_arg5 : S256x40960.Idx → Elt F .f32) (funext fun a => Fin.ext ?_)
  match a with
  | ⟨0, _⟩ => show win0_6.index t (0 : Fin 2) * 256 + 1 * q.val = q.val; rw [e0]; omega
  | ⟨1, _⟩ => show win0_6.index t (1 : Fin 2) * 2048 + 1 * j.val = 20480 + ((t.val % 10) * 2048 + j.val); rw [e1]; omega

/-! ## The small arrays, whole at every point -/

/-- The first bias: the block is the array. -/
theorem blk7_eq (c : Dev nD) (t : Fin cfg0.N) :
    (iblk m c 7 t : Vec F S256 .f32) = (V m c main_arg4 : S256.Idx → Elt F .f32) := by
  have e0 := idx7 t
  funext x
  obtain ⟨q, rfl⟩ : ∃ q : Fin 256, x = ix1 q := ⟨x 0, eq_ix1 x⟩
  unfold iblk
  rw [View.read_apply]
  show (V m c main_arg4 : S256.Idx → Elt F .f32) _ = (V m c main_arg4 : S256.Idx → Elt F .f32) _
  refine congrArg (V m c main_arg4 : S256.Idx → Elt F .f32) (funext fun a => Fin.ext ?_)
  match a with
  | ⟨0, _⟩ => show win0_7.index t (0 : Fin 1) * 256 + 1 * q.val = q.val; rw [e0]; omega

/-- The second bias: the block is the array. -/
theorem blk8_eq (c : Dev nD) (t : Fin cfg0.N) :
    (iblk m c 8 t : Vec F S256 .f32) = (V m c main_arg6 : S256.Idx → Elt F .f32) := by
  have e0 := idx8 t
  funext x
  obtain ⟨q, rfl⟩ : ∃ q : Fin 256, x = ix1 q := ⟨x 0, eq_ix1 x⟩
  unfold iblk
  rw [View.read_apply]
  show (V m c main_arg6 : S256.Idx → Elt F .f32) _ = (V m c main_arg6 : S256.Idx → Elt F .f32) _
  refine congrArg (V m c main_arg6 : S256.Idx → Elt F .f32) (funext fun a => Fin.ext ?_)
  match a with
  | ⟨0, _⟩ => show win0_8.index t (0 : Fin 1) * 256 + 1 * q.val = q.val; rw [e0]; omega

/-- The first layer's weights: the block is the array. -/
theorem blk9_eq (c : Dev nD) (t : Fin cfg0.N) :
    (iblk m c 9 t : Vec F S32x512 .f32) = (V m c main_arg7 : S32x512.Idx → Elt F .f32) := by
  obtain ⟨e0, e1⟩ := idx9 t
  funext x
  obtain ⟨q, k, rfl⟩ : ∃ (q : Fin 32) (k : Fin 512), x = ix2 q k := ⟨x 0, x 1, eq_ix2 x⟩
  unfold iblk
  rw [View.read_apply]
  show (V m c main_arg7 : S32x512.Idx → Elt F .f32) _ = (V m c main_arg7 : S32x512.Idx → Elt F .f32) _
  refine congrArg (V m c main_arg7 : S32x512.Idx → Elt F .f32) (funext fun a => Fin.ext ?_)
  match a with
  | ⟨0, _⟩ => show win0_9.index t (0 : Fin 2) * 32 + 1 * q.val = q.val; rw [e0]; omega
  | ⟨1, _⟩ => show win0_9.index t (1 : Fin 2) * 512 + 1 * k.val = k.val; rw [e1]; omega

/-- The first layer's bias: the block is the array. -/
theorem blk10_eq (c : Dev nD) (t : Fin cfg0.N) :
    (iblk m c 10 t : Vec F S32 .f32) = (V m c main_arg8 : S32.Idx → Elt F .f32) := by
  have e0 := idx10 t
  funext x
  obtain ⟨q, rfl⟩ : ∃ q : Fin 32, x = ix1 q := ⟨x 0, eq_ix1 x⟩
  unfold iblk
  rw [View.read_apply]
  show (V m c main_arg8 : S32.Idx → Elt F .f32) _ = (V m c main_arg8 : S32.Idx → Elt F .f32) _
  refine congrArg (V m c main_arg8 : S32.Idx → Elt F .f32) (funext fun a => Fin.ext ?_)
  match a with
  | ⟨0, _⟩ => show win0_10.index t (0 : Fin 1) * 32 + 1 * q.val = q.val; rw [e0]; omega

/-- The second layer's weights: the block is the array. -/
theorem blk11_eq (c : Dev nD) (t : Fin cfg0.N) :
    (iblk m c 11 t : Vec F S32x32 .f32) = (V m c main_arg9 : S32x32.Idx → Elt F .f32) := by
  obtain ⟨e0, e1⟩ := idx11 t
  funext x
  obtain ⟨q, k, rfl⟩ : ∃ (q : Fin 32) (k : Fin 32), x = ix2 q k := ⟨x 0, x 1, eq_ix2 x⟩
  unfold iblk
  rw [View.read_apply]
  show (V m c main_arg9 : S32x32.Idx → Elt F .f32) _ = (V m c main_arg9 : S32x32.Idx → Elt F .f32) _
  refine congrArg (V m c main_arg9 : S32x32.Idx → Elt F .f32) (funext fun a => Fin.ext ?_)
  match a with
  | ⟨0, _⟩ => show win0_11.index t (0 : Fin 2) * 32 + 1 * q.val = q.val; rw [e0]; omega
  | ⟨1, _⟩ => show win0_11.index t (1 : Fin 2) * 32 + 1 * k.val = k.val; rw [e1]; omega

/-- The second layer's bias: the block is the array. -/
theorem blk12_eq (c : Dev nD) (t : Fin cfg0.N) :
    (iblk m c 12 t : Vec F S32 .f32) = (V m c main_arg10 : S32.Idx → Elt F .f32) := by
  have e0 := idx12 t
  funext x
  obtain ⟨q, rfl⟩ : ∃ q : Fin 32, x = ix1 q := ⟨x 0, eq_ix1 x⟩
  unfold iblk
  rw [View.read_apply]
  show (V m c main_arg10 : S32.Idx → Elt F .f32) _ = (V m c main_arg10 : S32.Idx → Elt F .f32) _
  refine congrArg (V m c main_arg10 : S32.Idx → Elt F .f32) (funext fun a => Fin.ext ?_)
  match a with
  | ⟨0, _⟩ => show win0_12.index t (0 : Fin 1) * 32 + 1 * q.val = q.val; rw [e0]; omega

/-- The last layer's weights: the block is the array. -/
theorem blk13_eq (c : Dev nD) (t : Fin cfg0.N) :
    (iblk m c 13 t : Vec F S1x32 .f32) = (V m c main_arg11 : S1x32.Idx → Elt F .f32) := by
  obtain ⟨e0, e1⟩ := idx13 t
  funext x
  obtain ⟨q, k, rfl⟩ : ∃ (q : Fin 1) (k : Fin 32), x = ix2 q k := ⟨x 0, x 1, eq_ix2 x⟩
  unfold iblk
  rw [View.read_apply]
  show (V m c main_arg11 : S1x32.Idx → Elt F .f32) _ = (V m c main_arg11 : S1x32.Idx → Elt F .f32) _
  refine congrArg (V m c main_arg11 : S1x32.Idx → Elt F .f32) (funext fun a => Fin.ext ?_)
  match a with
  | ⟨0, _⟩ => show win0_13.index t (0 : Fin 2) * 1 + 1 * q.val = q.val; rw [e0]; omega
  | ⟨1, _⟩ => show win0_13.index t (1 : Fin 2) * 32 + 1 * k.val = k.val; rw [e1]; omega

/-- The last layer's bias: the block is the array. -/
theorem blk14_eq (c : Dev nD) (t : Fin cfg0.N) :
    (iblk m c 14 t : Vec F S1 .f32) = (V m c main_arg12 : S1.Idx → Elt F .f32) := by
  have e0 := idx14 t
  funext x
  obtain ⟨q, rfl⟩ : ∃ q : Fin 1, x = ix1 q := ⟨x 0, eq_ix1 x⟩
  unfold iblk
  rw [View.read_apply]
  show (V m c main_arg12 : S1.Idx → Elt F .f32) _ = (V m c main_arg12 : S1.Idx → Elt F .f32) _
  refine congrArg (V m c main_arg12 : S1.Idx → Elt F .f32) (funext fun a => Fin.ext ?_)
  match a with
  | ⟨0, _⟩ => show win0_14.index t (0 : Fin 1) * 1 + 1 * q.val = q.val; rw [e0]; omega

/-! ## The output window -/

/-- An index of the output array is in point `t`'s block iff each coordinate is in the block's range on its axis. -/
theorem mem_blk15 (t : Fin cfg0.N) (i : S4096x1.Idx) :
    i ∈ ((cfg0.win 15).blk t).view.set ↔ ∀ a : Fin 2, win0_15.index t a * S512x1.size a ≤ (i a).val ∧ (i a).val < win0_15.index t a * S512x1.size a + S512x1.size a := by
  show i ∈ ((View.whole main_v0).slice (win0_15.rect t)).set ↔ _
  rw [View.set_slice_whole, Rect.mem_set_unit]
  exact Iff.rfl

/-- Row `R` of the 4096 lies in point `t`'s block exactly when its batch tile is `t`'s. -/
theorem mem_blk15_row (t : Fin cfg0.N) (R : Fin 4096) :
    (ix2 R 0 : S4096x1.Idx) ∈ ((cfg0.win 15).blk t).view.set ↔ R.val / 512 = t.val / 10 := by
  obtain ⟨e0, e1⟩ := idx15 t
  rw [mem_blk15]
  constructor
  · intro h
    have b0 : win0_15.index t (0 : Fin 2) * 512 ≤ R.val ∧ R.val < win0_15.index t (0 : Fin 2) * 512 + 512 := h 0
    rw [e0] at b0
    omega
  · intro h a
    match a with
    | ⟨0, _⟩ => show win0_15.index t (0 : Fin 2) * 512 ≤ R.val ∧ R.val < win0_15.index t (0 : Fin 2) * 512 + 512; rw [e0]; omega
    | ⟨1, _⟩ => show win0_15.index t (1 : Fin 2) * 1 ≤ 0 ∧ 0 < win0_15.index t (1 : Fin 2) * 1 + 1; rw [e1]; omega

/-- The point that writes row `R` back: the last reduction tile of its batch tile. -/
theorem flushPt_lt (R : Fin 4096) : R.val / 512 * 10 + 9 < cfg0.N := by
  have : R.val / 512 * 10 + 9 < 80 := by omega
  exact this.trans_eq N_0.symm

/-- That point writes back, and row `R` is in its block. -/
theorem cover15_row (R : Fin 4096) :
    (cfg0.win 15).flush ⟨R.val / 512 * 10 + 9, flushPt_lt R⟩ = true
      ∧ (ix2 R 0 : S4096x1.Idx) ∈ ((cfg0.win 15).blk ⟨R.val / 512 * 10 + 9, flushPt_lt R⟩).view.set := by
  refine ⟨(flush0_15 _).mpr ?_, (mem_blk15_row _ R).mpr ?_⟩
  · show (R.val / 512 * 10 + 9) % 10 = 9; omega
  · show R.val / 512 = (R.val / 512 * 10 + 9) / 10; omega

/-- THE COVER: every index of the output array is in the block of some point that writes back. -/
theorem cover15 (i : S4096x1.Idx) :
    ∃ t : Fin cfg0.N, (cfg0.win 15).flush t = true ∧ i ∈ ((cfg0.win 15).blk t).view.set := by
  obtain ⟨R, q, rfl⟩ : ∃ (R : Fin 4096) (q : Fin 1), i = ix2 R q := ⟨i 0, i 1, eq_ix2 i⟩
  obtain rfl : q = 0 := Subsingleton.elim _ _
  exact ⟨_, cover15_row R⟩

/-- A point that writes back is the last reduction tile of its batch tile. -/
theorem last_of_flush15 (t : Fin cfg0.N) (hf : (cfg0.win 15).flush t = true) : t.val % 10 = 9 := (flush0_15 t).mp hf

/-- The output window's block of a whole-array contents `G`, entry by entry: the rows of batch tile `t / 10`. -/
theorem blk15_read_apply (c : Dev nD) (G : Buf (Elt F) ((cfg0.win 15).arr.view.loc (c.tc : Thread nD τ))) (t : Fin cfg0.N) (p : Fin 512) :
    (((cfg0.win 15).blk t).view.read (Elt F) G : Vec F S512x1 .f32) (ix2 p 0)
      = (G : S4096x1.Idx → Elt F .f32) (ix2 ⟨(t.val / 10) * 512 + p.val, row_lt t p⟩ 0) := by
  obtain ⟨e0, e1⟩ := idx15 t
  rw [View.read_apply]
  show (G : S4096x1.Idx → Elt F .f32) _ = (G : S4096x1.Idx → Elt F .f32) _
  refine congrArg (G : S4096x1.Idx → Elt F .f32) (funext fun a => Fin.ext ?_)
  match a with
  | ⟨0, _⟩ => show win0_15.index t (0 : Fin 2) * 512 + 1 * p.val = (t.val / 10) * 512 + p.val; rw [e0]; omega
  | ⟨1, _⟩ => show win0_15.index t (1 : Fin 2) * 1 + 1 * 0 = 0; rw [e1]

end Cert.KernelIdeal.Hand

end
-- ==== Proof.NnueSpec.lean ====
/-
  The mathematics of the two programs, stated once, with no program in sight.

  A position's two feature rows `white r`, `black r` (20480 columns each) are multiplied against the two halves of a
  256 × 40960 weight matrix: columns `0 … 20479` meet the first row, columns `20480 … 40959` the second. The
  sum over the 40960 columns may be taken at once (`ftWhole`) or tile by tile — ten tiles of 2048 columns, each tile
  contributing its first-half and its second-half partial sums, the tiles added up from zero in order (`ftTiled`).
  On the extended reals addition is commutative and associative (with `⊥ + ⊤ = ⊥` absorbed the same way on both
  sides), so the two arrangements agree with no finiteness assumption: `ftTiled_eq_ftWhole`.

  From the two 256-wide feature transforms `w`, `b` and the side-to-move bit `p` the network mixes
  `p·w + (1-p)·b` (first 256 columns) and `p·b + (1-p)·w` (last 256), clamps at zero, and applies three affine layers
  512 → 32 → 32 → 1 with a clamp after the first two: `mix`, `layer`, `out`.
-/
import Idealize.ShloMosaic.PureOps.Ideal
import Idealize.ShloMosaic.Lib.ValueIdx

noncomputable section

open scoped BigOperators

namespace Cert.Nnue

open Idealize.ShloMosaic Idealize.ShloMosaic.ValueIdx

/-- A matrix of extended reals indexed by a rank-2 shape's indices. -/
abbrev Mat (a b : Nat) : Type := (⟨2, ![a, b]⟩ : Shape).Idx → EReal
/-- A vector of extended reals indexed by a rank-1 shape's indices. -/
abbrev Vc (a : Nat) : Type := (⟨1, ![a]⟩ : Shape).Idx → EReal

/-- Column `j` of tile `k` inside one half (20480 columns, ten tiles of 2048). -/
def halfCol (k : Fin 10) (j : Fin 2048) : Fin 20480 := ⟨k.val * 2048 + j.val, by omega⟩
/-- The same column in the first half of the 40960 weight columns. -/
def loCol (k : Fin 10) (j : Fin 2048) : Fin 40960 := ⟨k.val * 2048 + j.val, by omega⟩
/-- The same column in the second half of the 40960 weight columns. -/
def hiCol (k : Fin 10) (j : Fin 2048) : Fin 40960 := ⟨20480 + (k.val * 2048 + j.val), by omega⟩

/-- The joined feature row `[u r, v r]` at column `j` of 40960. -/
def joined (u v : Mat 4096 20480) (r : Fin 4096) (j : Fin 40960) : EReal :=
  if h : j.val < 20480 then u (ix2 r ⟨j.val, h⟩) else v (ix2 r ⟨j.val - 20480, by omega⟩)

/-- The feature transform taken at once: the joined row against row `c` of the weights. -/
def ftWhole (u v : Mat 4096 20480) (W : Mat 256 40960) (r : Fin 4096) (c : Fin 256) : EReal :=
  ∑ j : Fin 40960, joined u v r j * W (ix2 c j)

/-- Tile `k`'s contribution: its 2048 first-half products plus its 2048 second-half products. -/
def tile (u v : Mat 4096 20480) (W : Mat 256 40960) (r : Fin 4096) (c : Fin 256) (k : Fin 10) : EReal :=
  (∑ j : Fin 2048, u (ix2 r (halfCol k j)) * W (ix2 c (loCol k j)))
    + (∑ j : Fin 2048, v (ix2 r (halfCol k j)) * W (ix2 c (hiCol k j)))

/-- The running sum after the first `n` tiles, started from zero and added to in tile order. -/
def ftUpTo (u v : Mat 4096 20480) (W : Mat 256 40960) (r : Fin 4096) (c : Fin 256) : Nat → EReal
  | 0 => 0
  | n + 1 => ftUpTo u v W r c n + (if h : n < 10 then tile u v W r c ⟨n, h⟩ else 0)

/-- The feature transform taken tile by tile: the running sum after all ten tiles. -/
def ftTiled (u v : Mat 4096 20480) (W : Mat 256 40960) (r : Fin 4096) (c : Fin 256) : EReal :=
  ftUpTo u v W r c 10

/-- Column `d` of 512 of the mixed, clamped hidden row: `p·w + (1-p)·b` on the first 256 columns, `p·b + (1-p)·w` on the last. -/
def mix (one zero : EReal) (p : EReal) (w b : Fin 256 → EReal) (d : Fin 512) : EReal :=
  max (if h : d.val < 256 then p * w ⟨d.val, h⟩ + (one - p) * b ⟨d.val, h⟩
       else p * b ⟨d.val - 256, by omega⟩ + (one - p) * w ⟨d.val - 256, by omega⟩) zero

/-- One affine layer read at output `e`: the input row against row `e` of the weights, plus the bias. -/
def layer {n o : Nat} (x : Fin n → EReal) (W : Mat o n) (bias : Vc o) (e : Fin o) : EReal :=
  (∑ d : Fin n, x d * W (ix2 e d)) + bias (ix1 e)

/-- The network's output for position `r`, from the two feature transforms `ftW`, `ftB` (each a function of row and
    column), `one` and `zero` the two float literals the programs share. -/
def out (one zero : EReal) (ftW ftB : Fin 4096 → Fin 256 → EReal)
    (pov : Mat 4096 1) (bw bb : Vc 256) (W0 : Mat 32 512) (b0 : Vc 32) (W1 : Mat 32 32) (b1 : Vc 32)
    (W2 : Mat 1 32) (b2 : Vc 1) (r : Fin 4096) : EReal :=
  let w : Fin 256 → EReal := fun c => ftW r c + bw (ix1 c)
  let b : Fin 256 → EReal := fun c => ftB r c + bb (ix1 c)
  let x : Fin 512 → EReal := mix one zero (pov (ix2 r 0)) w b
  let h0 : Fin 32 → EReal := fun e => max (layer x W0 b0 e) zero
  let h1 : Fin 32 → EReal := fun e => max (layer h0 W1 b1 e) zero
  layer h1 W2 b2 0

end Cert.Nnue

end
-- ==== Proof.Payloads.lean ====
/-
  The kernel body's arithmetic, read one entry at a time over the extended reals.

  Every value the body stores or carries is a composite of entrywise operations, re-indexings
  (a row or a column repeated, a vector viewed as a one-row matrix, two matrices laid side by side)
  and products of a matrix against the rows of another. Read at one entry the re-indexings disappear,
  the entrywise operations become the extended reals' own, and each product becomes the sum over the
  shared axis of the two rows' entrywise products: the partial feature sums of one tile (two products
  added to the running sum) and the three affine layers with their clamps.
-/
import proofs.«144363_j27049704030261_1_alg».proof.Proof.Gen.KernelIdeal.Skeleton
import proofs.«144363_j27049704030261_1_alg».proof.Proof.NnueSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## Re-indexings read at an entry -/

/-- A one-column matrix repeated along its rows reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Two 512 × 256 matrices side by side read, at a column below 256, the first at that column. -/
theorem concat_left {α : Type} (x₁ x₂ : S512x256.Idx → α)
    (h : Shape.Concatenates [S512x256, S512x256] S512x512 1) (p : Fin 512) (c : Fin 512) (hc : c.val < 256) :
    concatenate S512x512 1 [⟨S512x256, x₁⟩, ⟨S512x256, x₂⟩] h (ix2 p c) = x₁ (ix2 p ⟨c.val, hc⟩) :=
  concatenate_pair_apply_left (1 : Fin 2) x₁ x₂ h (ix2 p c) rfl (ix2 p ⟨c.val, hc⟩) fun b => by
    match b with
    | ⟨0, _⟩ => rfl
    | ⟨1, _⟩ => rfl

/-- … and, at a column from 256 on, the second at that column less 256. -/
theorem concat_right {α : Type} (x₁ x₂ : S512x256.Idx → α)
    (h : Shape.Concatenates [S512x256, S512x256] S512x512 1) (p : Fin 512) (c : Fin 512) (hc : ¬ c.val < 256) :
    concatenate S512x512 1 [⟨S512x256, x₁⟩, ⟨S512x256, x₂⟩] h (ix2 p c)
      = x₂ (ix2 p ⟨c.val - 256, by have := c.isLt; omega⟩) :=
  concatenate_pair_apply_right (1 : Fin 2) x₁ x₂ h (ix2 p c) rfl rfl (ix2 p ⟨c.val - 256, by have := c.isLt; omega⟩)
    (fun b hb => by
      match b with
      | ⟨0, _⟩ => rfl
      | ⟨1, _⟩ => exact absurd rfl hb)
    (by show c.val - 256 + 256 = c.val; omega)

/-! ## A product against the rows of the second operand -/

/-- A product that contracts the second axis of both operands, added into the zero matrix, reads at
    `(p, q)` the sum over the shared axis of row `p` of the first times row `q` of the second. The four
    hypotheses are the dimension numbers' reading of the two operands' indices. -/
theorem matmul_rows_apply {a b n : ℕ} {φ₁ φ₂ : FTy}
    (D : DotDims ⟨2, ![a, n]⟩ ⟨2, ![b, n]⟩ ⟨2, ![a, b]⟩)
    (hr : D.contr.rank = 1) (hs : D.contr.size ⟨0, by omega⟩ = n)
    (hlc : D.lhsContracting = [1]) (hrc : D.rhsContracting = [1])
    (hl0 : ∀ (j : (⟨2, ![a, b]⟩ : Shape).Idx) (k : D.contr.Idx), (D.lhsIdx j k 0).val = (j 0).val)
    (hr0 : ∀ (j : (⟨2, ![a, b]⟩ : Shape).Idx) (k : D.contr.Idx), (D.rhsIdx j k 0).val = (j 1).val)
    (lhs : FVec Ideal ⟨2, ![a, n]⟩ φ₁) (rhs : FVec Ideal ⟨2, ![b, n]⟩ φ₂) (p : Fin a) (q : Fin b) :
    matmul D none lhs rhs (constant (F := Ideal) ⟨2, ![a, b]⟩ .f32 0x00000000#32) (ix2 p q)
      = ∑ j : Fin n, lhs (ix2 p j) * rhs (ix2 q j) := by
  refine (Ideal.matmul_constant_zero_apply D none lhs rhs (ix2 p q)).trans ?_
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (D.lhsIdx_val_of_single hlc _ _).trans hk)
  have er : D.rhsIdx (ix2 p q) ((contrEquiv1 D n hr hs).symm k) = ix2 q k := funext fun ax => Fin.ext (by
    match ax with
    | ⟨0, _⟩ => exact hr0 _ _
    | ⟨1, _⟩ => exact (D.rhsIdx_val_of_single hrc _ _).trans hk)
  rw [el, er]

/-! ## The body's four products -/

/-- The feature product: 512 × 2048 against the rows of 256 × 2048. -/
theorem mmFt_apply {φ₁ φ₂ : FTy} (lhs : FVec Ideal S512x2048 φ₁) (rhs : FVec Ideal S256x2048 φ₂) (p : Fin 512) (q : Fin 256) :
    matmul dot_S512x2048_S256x2048_S512x256_1_1_0_0_n_n none lhs rhs (constant (F := Ideal) S512x256 .f32 0x00000000#32) (ix2 p q)
      = ∑ j : Fin 2048, lhs (ix2 p j) * rhs (ix2 q j) :=
  matmul_rows_apply dot_S512x2048_S256x2048_S512x256_1_1_0_0_n_n rfl rfl rfl rfl
    (fun j k => by
      unfold DotDims.lhsIdx
      rw [dif_neg (show ¬(0 : Fin S512x2048.rank) ∈ dot_S512x2048_S256x2048_S512x256_1_1_0_0_n_n.lhsBatch by decide),
        dif_pos (show (0 : Fin S512x2048.rank) ∈ dot_S512x2048_S256x2048_S512x256_1_1_0_0_n_n.lhsNonContracting by decide)]
      rfl)
    (fun j k => by
      unfold DotDims.rhsIdx
      rw [dif_neg (show ¬(0 : Fin S256x2048.rank) ∈ dot_S512x2048_S256x2048_S512x256_1_1_0_0_n_n.rhsBatch by decide),
        dif_pos (show (0 : Fin S256x2048.rank) ∈ dot_S512x2048_S256x2048_S512x256_1_1_0_0_n_n.rhsNonContracting by decide)]
      rfl)
    lhs rhs p q

/-- The first layer's product: 512 × 512 against the rows of 32 × 512. -/
theorem mmL0_apply {φ₁ φ₂ : FTy} (lhs : FVec Ideal S512x512 φ₁) (rhs : FVec Ideal S32x512 φ₂) (p : Fin 512) (q : Fin 32) :
    matmul dot_S512x512_S32x512_S512x32_1_1_0_0_n_n none lhs rhs (constant (F := Ideal) S512x32 .f32 0x00000000#32) (ix2 p q)
      = ∑ j : Fin 512, lhs (ix2 p j) * rhs (ix2 q j) :=
  matmul_rows_apply dot_S512x512_S32x512_S512x32_1_1_0_0_n_n rfl rfl rfl rfl
    (fun j k => by
      unfold DotDims.lhsIdx
      rw [dif_neg (show ¬(0 : Fin S512x512.rank) ∈ dot_S512x512_S32x512_S512x32_1_1_0_0_n_n.lhsBatch by decide),
        dif_pos (show (0 : Fin S512x512.rank) ∈ dot_S512x512_S32x512_S512x32_1_1_0_0_n_n.lhsNonContracting by decide)]
      rfl)
    (fun j k => by
      unfold DotDims.rhsIdx
      rw [dif_neg (show ¬(0 : Fin S32x512.rank) ∈ dot_S512x512_S32x512_S512x32_1_1_0_0_n_n.rhsBatch by decide),
        dif_pos (show (0 : Fin S32x512.rank) ∈ dot_S512x512_S32x512_S512x32_1_1_0_0_n_n.rhsNonContracting by decide)]
      rfl)
    lhs rhs p q

/-- The second layer's product: 512 × 32 against the rows of 32 × 32. -/
theorem mmL1_apply {φ₁ φ₂ : FTy} (lhs : FVec Ideal S512x32 φ₁) (rhs : FVec Ideal S32x32 φ₂) (p : Fin 512) (q : Fin 32) :
    matmul dot_S512x32_S32x32_S512x32_1_1_0_0_n_n none lhs rhs (constant (F := Ideal) S512x32 .f32 0x00000000#32) (ix2 p q)
      = ∑ j : Fin 32, lhs (ix2 p j) * rhs (ix2 q j) :=
  matmul_rows_apply dot_S512x32_S32x32_S512x32_1_1_0_0_n_n rfl rfl rfl rfl
    (fun j k => by
      unfold DotDims.lhsIdx
      rw [dif_neg (show ¬(0 : Fin S512x32.rank) ∈ dot_S512x32_S32x32_S512x32_1_1_0_0_n_n.lhsBatch by decide),
        dif_pos (show (0 : Fin S512x32.rank) ∈ dot_S512x32_S32x32_S512x32_1_1_0_0_n_n.lhsNonContracting by decide)]
      rfl)
    (fun j k => by
      unfold DotDims.rhsIdx
      rw [dif_neg (show ¬(0 : Fin S32x32.rank) ∈ dot_S512x32_S32x32_S512x32_1_1_0_0_n_n.rhsBatch by decide),
        dif_pos (show (0 : Fin S32x32.rank) ∈ dot_S512x32_S32x32_S512x32_1_1_0_0_n_n.rhsNonContracting by decide)]
      rfl)
    lhs rhs p q

/-- The last layer's product: 512 × 32 against the one row of 1 × 32. -/
theorem mmL2_apply {φ₁ φ₂ : FTy} (lhs : FVec Ideal S512x32 φ₁) (rhs : FVec Ideal S1x32 φ₂) (p : Fin 512) (q : Fin 1) :
    matmul dot_S512x32_S1x32_S512x1_1_1_0_0_n_n none lhs rhs (constant (F := Ideal) S512x1 .f32 0x00000000#32) (ix2 p q)
      = ∑ j : Fin 32, lhs (ix2 p j) * rhs (ix2 q j) :=
  matmul_rows_apply dot_S512x32_S1x32_S512x1_1_1_0_0_n_n rfl rfl rfl rfl
    (fun j k => by
      unfold DotDims.lhsIdx
      rw [dif_neg (show ¬(0 : Fin S512x32.rank) ∈ dot_S512x32_S1x32_S512x1_1_1_0_0_n_n.lhsBatch by decide),
        dif_pos (show (0 : Fin S512x32.rank) ∈ dot_S512x32_S1x32_S512x1_1_1_0_0_n_n.lhsNonContracting by decide)]
      rfl)
    (fun j k => by
      unfold DotDims.rhsIdx
      rw [dif_neg (show ¬(0 : Fin S1x32.rank) ∈ dot_S512x32_S1x32_S512x1_1_1_0_0_n_n.rhsBatch by decide),
        dif_pos (show (0 : Fin S1x32.rank) ∈ dot_S512x32_S1x32_S512x1_1_1_0_0_n_n.rhsNonContracting by decide)]
      rfl)
    lhs rhs p q

/-! ## The accumulators: cleared, carried, and added to -/

/-- The cleared first accumulator is the zero word everywhere. -/
theorem pay5_apply (i : S512x256.Idx) : k0_pay5 (F := Ideal) i = Ideal.ofBits .f32 0x00000000#32 := by
  unfold k0_pay5
  exact congrFun (shapeCast_self _ _) i

/-- The cleared second accumulator is the zero word everywhere. -/
theorem pay6_apply (i : S512x256.Idx) : k0_pay6 (F := Ideal) i = Ideal.ofBits .f32 0x00000000#32 := by
  unfold k0_pay6
  exact congrFun (shapeCast_self _ _) i

/-- The carried second accumulator is stored as it is. -/
theorem pay1_eq (v27 : FVec Ideal S512x256 .f32) : k0_pay1 (F := Ideal) v27 = v27 := by
  unfold k0_pay1
  exact shapeCast_self _ _

/-- One tile's step of the first accumulator: the running sum plus the tile's two row products. -/
theorem pay9_apply (v3 v5 : Vec Ideal S512x2048 .f32) (v7 v9 : Vec Ideal S256x2048 .f32) (v21 : Vec Ideal S512x256 .f32)
    (p : Fin 512) (q : Fin 256) :
    k0_pay9 (F := Ideal) v3 v5 v7 v9 v21 (ix2 p q)
      = v21 (ix2 p q) + ((∑ j : Fin 2048, v3 (ix2 p j) * v7 (ix2 q j)) + (∑ j : Fin 2048, v5 (ix2 p j) * v9 (ix2 q j))) := by
  unfold k0_pay9 k0_pay7 k0_pay8
  refine (congrFun (shapeCast_self _ _) (ix2 p q)).trans ?_
  refine (addf_apply _ _ _).trans (congrArg (v21 (ix2 p q) + ·) ?_)
  refine (addf_apply _ _ _).trans ?_
  exact congrArg₂ (· + ·) (mmFt_apply _ _ p q) (mmFt_apply _ _ p q)

/-- One tile's step of the second accumulator, the two feature rows exchanged. -/
theorem pay10_apply (v3 v5 : Vec Ideal S512x2048 .f32) (v11 v13 : Vec Ideal S256x2048 .f32) (v26 : Vec Ideal S512x256 .f32)
    (p : Fin 512) (q : Fin 256) :
    k0_pay10 (F := Ideal) v3 v5 v11 v13 v26 (ix2 p q)
      = v26 (ix2 p q) + ((∑ j : Fin 2048, v5 (ix2 p j) * v11 (ix2 q j)) + (∑ j : Fin 2048, v3 (ix2 p j) * v13 (ix2 q j))) := by
  unfold k0_pay10 k0_pay7 k0_pay8
  refine (addf_apply _ _ _).trans (congrArg (v26 (ix2 p q) + ·) ?_)
  refine (addf_apply _ _ _).trans ?_
  exact congrArg₂ (· + ·) (mmFt_apply _ _ p q) (mmFt_apply _ _ p q)

/-! ## The network's tail: the mix, the clamps and the three affine layers -/

/-- A matrix plus a vector repeated along its rows (the vector viewed as a one-row matrix first) reads, at
    `(p, c)`, the matrix's entry plus the vector's entry `c`. -/
theorem add_row_apply {a b : ℕ} (v : FVec Ideal ⟨2, ![a, b]⟩ .f32) (bias : FVec Ideal ⟨1, ![b]⟩ .f32)
    (h1 : (⟨1, ![b]⟩ : Shape).ShapeCasts ⟨2, ![1, b]⟩) (h2 : (⟨2, ![1, b]⟩ : Shape).Broadcasts ⟨2, ![a, b]⟩)
    (p : Fin a) (c : Fin b) :
    addf v (broadcastTo ⟨2, ![a, b]⟩ (shapeCast ⟨2, ![1, b]⟩ bias h1) h2) (ix2 p c) = v (ix2 p c) + bias (ix1 c) :=
  (addf_apply _ _ _).trans (congrArg (v (ix2 p c) + ·)
    ((broadcastTo_1b_ab_apply _ h2 p c).trans (shapeCast_a_1a_apply bias h1 0 c)))

/-- One half of the mix, as the body spells it: the side-to-move column times one matrix plus its
    complement to one times the other, read at `(p, c)`. -/
theorem mixHalf_apply (P : FVec Ideal S512x1 .f32) (x y : FVec Ideal S512x256 .f32)
    (h : S512x1.Broadcasts S512x256) (p : Fin 512) (c : Fin 256) :
    addf (mulf (broadcastTo S512x256 P h) x)
        (mulf (broadcastTo S512x256 (subf (broadcast S512x1 (Ideal.ofBits .f32 0x3F800000#32)) P) h) y) (ix2 p c)
      = P (ix2 p 0) * x (ix2 p c) + ((Ideal.ofBits .f32 0x3F800000#32) - P (ix2 p 0)) * y (ix2 p c) :=
  (addf_apply _ _ _).trans (congrArg₂ (· + ·)
    ((mulf_apply _ _ _).trans (congrArg (· * x (ix2 p c)) (broadcastTo_a1_ab_apply P h p c)))
    ((mulf_apply _ _ _).trans (congrArg (· * y (ix2 p c)) (broadcastTo_a1_ab_apply _ h p c))))

/-- An affine layer read at an output, written out. -/
theorem layer_def {n o : ℕ} (x : Fin n → EReal) (W : Cert.Nnue.Mat o n) (bias : Cert.Nnue.Vc o) (e : Fin o) :
    Cert.Nnue.layer x W bias e = (∑ d : Fin n, x d * W (ix2 e d)) + bias (ix1 e) := rfl

/-- The second layer's product over the clamped first layer, read at `(p, d)`. -/
theorem pay3_apply (v34 : Vec Ideal S512x256 .f32) (v35 : Vec Ideal S256 .f32) (v39 : Vec Ideal S512x256 .f32)
    (v40 : Vec Ideal S256 .f32) (v44 : Vec Ideal S512x1 .f32) (v62 : Vec Ideal S32x512 .f32) (v64 : Vec Ideal S32 .f32)
    (v70 : Vec Ideal S32x32 .f32) (p : Fin 512) (d : Fin 32) :
    k0_pay3 (F := Ideal) v34 v35 v39 v40 v44 v62 v64 v70 (ix2 p d)
      = ∑ e : Fin 32, max (Cert.Nnue.layer
            (Cert.Nnue.mix (Ideal.ofBits .f32 0x3F800000#32) (Ideal.ofBits .f32 0x00000000#32) (v44 (ix2 p 0))
              (fun c => v34 (ix2 p c) + v35 (ix1 c)) (fun c => v39 (ix2 p c) + v40 (ix1 c)))
            v62 v64 e) (Ideal.ofBits .f32 0x00000000#32) * v70 (ix2 d e) := by
  unfold k0_pay3
  refine (mmL1_apply _ v70 p d).trans (Finset.sum_congr rfl fun e _ => congrArg (· * v70 (ix2 d e)) ?_)
  refine (maximumf_apply _ _ _).trans (congrArg₂ max ?_ rfl)
  refine (add_row_apply _ v64 _ _ p e).trans ?_
  refine Eq.trans ?_ (layer_def _ v62 v64 e).symm
  refine congrArg (· + v64 (ix1 e)) ?_
  refine (mmL0_apply _ v62 p e).trans (Finset.sum_congr rfl fun c _ => congrArg (· * v62 (ix2 e c)) ?_)
  refine (maximumf_apply _ _ _).trans ?_
  unfold Cert.Nnue.mix
  refine congrArg₂ max ?_ rfl
  split
  · next hc =>
    refine (concat_left _ _ _ p c hc).trans ?_
    refine (mixHalf_apply v44 _ _ _ p ⟨c.val, hc⟩).trans ?_
    exact congrArg₂ (fun s t => v44 (ix2 p 0) * s + ((Ideal.ofBits .f32 0x3F800000#32) - v44 (ix2 p 0)) * t)
      (add_row_apply v34 v35 _ _ p ⟨c.val, hc⟩) (add_row_apply v39 v40 _ _ p ⟨c.val, hc⟩)
  · next hc =>
    refine (concat_right _ _ _ p c hc).trans ?_
    refine (mixHalf_apply v44 _ _ _ p ⟨c.val - 256, by have := c.isLt; omega⟩).trans ?_
    exact congrArg₂ (fun s t => v44 (ix2 p 0) * s + ((Ideal.ofBits .f32 0x3F800000#32) - v44 (ix2 p 0)) * t)
      (add_row_apply v39 v40 _ _ p ⟨c.val - 256, by have := c.isLt; omega⟩)
      (add_row_apply v34 v35 _ _ p ⟨c.val - 256, by have := c.isLt; omega⟩)

/-- The stored output column: the last layer over the clamped second layer over the clamped first layer over
    the mixed, clamped feature row. -/
theorem tail_apply (v34 : Vec Ideal S512x256 .f32) (v35 : Vec Ideal S256 .f32) (v39 : Vec Ideal S512x256 .f32)
    (v40 : Vec Ideal S256 .f32) (v44 : Vec Ideal S512x1 .f32) (v62 : Vec Ideal S32x512 .f32) (v64 : Vec Ideal S32 .f32)
    (v70 : Vec Ideal S32x32 .f32) (v72 : Vec Ideal S32 .f32) (v78 : Vec Ideal S1x32 .f32) (v80 : Vec Ideal S1 .f32)
    (p : Fin 512) :
    k0_pay2 (F := Ideal) (k0_pay3 v34 v35 v39 v40 v44 v62 v64 v70) (k0_pay4 v72) v78 v80 (ix2 p 0)
      = Cert.Nnue.layer (fun e => max (Cert.Nnue.layer (fun e => max (Cert.Nnue.layer
            (Cert.Nnue.mix (Ideal.ofBits .f32 0x3F800000#32) (Ideal.ofBits .f32 0x00000000#32) (v44 (ix2 p 0))
               (fun c => v34 (ix2 p c) + v35 (ix1 c)) (fun c => v39 (ix2 p c) + v40 (ix1 c)))
            v62 v64 e) (Ideal.ofBits .f32 0x00000000#32)) v70 v72 e) (Ideal.ofBits .f32 0x00000000#32)) v78 v80 0 := by
  unfold k0_pay2 k0_pay4
  refine (addf_apply _ _ _).trans ?_
  refine Eq.trans ?_ (layer_def _ v78 v80 0).symm
  refine congrArg₂ (· + ·) ?_ ((broadcastTo_1b_ab_apply _ _ p 0).trans (shapeCast_a_1a_apply v80 _ 0 0))
  refine (mmL2_apply _ v78 p 0).trans (Finset.sum_congr rfl fun d _ => congrArg (· * v78 (ix2 0 d)) ?_)
  refine (maximumf_apply _ _ _).trans (congrArg₂ max ?_ rfl)
  refine (add_row_apply _ v72 _ _ p d).trans ?_
  refine Eq.trans ?_ (layer_def _ v70 v72 d).symm
  exact congrArg (· + v72 (ix1 d)) (pay3_apply v34 v35 v39 v40 v44 v62 v64 v70 p d)

end Cert.KernelIdeal.PayValue

end
-- ==== Proof.NnueLaw.lean ====
/-
  The regrouping law of the feature transform.

  The 40960 weight columns are the disjoint union of the twenty column families `loCol k ·` and `hiCol k ·`
  (`k < 10`, 2048 columns each): the first 20480 columns are cut into ten consecutive runs of 2048, and so are the
  last 20480. A sum over all columns is therefore the sum, over the ten tiles, of the two partial sums of that
  tile. On a `loCol` column the joined row reads the first feature row, on a `hiCol` column the second one, at the
  tile's column of the half. The running sum `ftUpTo` after ten tiles is the sum of the ten tiles. Together:
  the tiled feature transform is the whole one. Everything happens in a commutative additive monoid, so no
  finiteness is needed, and no sum is ever expanded.
-/
import proofs.«144363_j27049704030261_1_alg».proof.Proof.NnueSpec

noncomputable section

open scoped BigOperators

namespace Cert.Nnue

open Idealize.ShloMosaic Idealize.ShloMosaic.ValueIdx

/-! ### Sums over consecutive runs of columns -/

/-- A sum over `m * n` indices is the sum over `m` runs of the sums over the `n` indices of each run. -/
theorem sum_fin_mul {M : Type} [AddCommMonoid M] (m n : Nat) (g : Fin (m * n) → M) :
    ∑ i, g i = ∑ k : Fin m, ∑ j : Fin n, g (finProdFinEquiv (k, j)) := by
  rw [← Fintype.sum_prod_type' (f := fun k j => g (finProdFinEquiv (k, j)))]
  exact (Fintype.sum_equiv finProdFinEquiv _ _ (fun x => rfl)).symm

/-- The run-and-offset numbering of a half's columns is `halfCol`. -/
theorem finProdFinEquiv_eq_halfCol (k : Fin 10) (j : Fin 2048) :
    (finProdFinEquiv (k, j) : Fin (10 * 2048)) = halfCol k j :=
  Fin.ext (by show j.val + 2048 * k.val = k.val * 2048 + j.val; omega)

/-- A sum over the 20480 columns of a half, tile by tile. -/
theorem sum_half {M : Type} [AddCommMonoid M] (g : Fin 20480 → M) :
    ∑ i, g i = ∑ k : Fin 10, ∑ j : Fin 2048, g (halfCol k j) := by
  have h := sum_fin_mul 10 2048 g
  simp only [finProdFinEquiv_eq_halfCol] at h
  exact h

/-- A sum over the 40960 columns splits into the first 20480 and the last 20480. -/
theorem sum_two_halves {M : Type} [AddCommMonoid M] (g : Fin 40960 → M) :
    ∑ j, g j = (∑ i : Fin 20480, g ⟨i.val, by omega⟩) + ∑ i : Fin 20480, g ⟨20480 + i.val, by omega⟩ :=
  Fin.sum_univ_add (a := 20480) (b := 20480) g

/-- A sum over all 40960 columns, tile by tile: each tile brings its first-half and its second-half columns. -/
theorem sum_tiles {M : Type} [AddCommMonoid M] (g : Fin 40960 → M) :
    ∑ j, g j = ∑ k : Fin 10, ((∑ j : Fin 2048, g (loCol k j)) + ∑ j : Fin 2048, g (hiCol k j)) := by
  rw [Finset.sum_add_distrib, sum_two_halves g,
    sum_half (fun i : Fin 20480 => g ⟨i.val, by omega⟩),
    sum_half (fun i : Fin 20480 => g ⟨20480 + i.val, by omega⟩)]
  rfl

/-! ### The joined row on the two column families -/

/-- On a first-half column the joined row is the first feature row. -/
theorem joined_loCol (u v : Mat 4096 20480) (r : Fin 4096) (k : Fin 10) (j : Fin 2048) :
    joined u v r (loCol k j) = u (ix2 r (halfCol k j)) := by
  have h : (loCol k j).val < 20480 := by show k.val * 2048 + j.val < 20480; omega
  unfold joined
  rw [dif_pos h]
  rfl

/-- On a second-half column the joined row is the second feature row. -/
theorem joined_hiCol (u v : Mat 4096 20480) (r : Fin 4096) (k : Fin 10) (j : Fin 2048) :
    joined u v r (hiCol k j) = v (ix2 r (halfCol k j)) := by
  have h : ¬ (hiCol k j).val < 20480 := by show ¬ (20480 + (k.val * 2048 + j.val) < 20480); omega
  unfold joined
  rw [dif_neg h]
  refine congrArg (fun i => v (ix2 r i)) (Fin.ext ?_)
  show 20480 + (k.val * 2048 + j.val) - 20480 = k.val * 2048 + j.val
  omega

/-! ### The running sum -/

theorem ftUpTo_zero (u v : Mat 4096 20480) (W : Mat 256 40960) (r : Fin 4096) (c : Fin 256) :
    ftUpTo u v W r c 0 = 0 := rfl

theorem ftUpTo_succ (u v : Mat 4096 20480) (W : Mat 256 40960) (r : Fin 4096) (c : Fin 256) (k : Fin 10) :
    ftUpTo u v W r c (k.val + 1) = ftUpTo u v W r c k.val + tile u v W r c k := by
  show ftUpTo u v W r c k.val + (if h : k.val < 10 then tile u v W r c ⟨k.val, h⟩ else 0) = _
  rw [dif_pos k.isLt]

/-- The running sum after `n` tiles is the sum of the first `n` tiles (nothing is added past the tenth). -/
theorem ftUpTo_eq_sum_range (u v : Mat 4096 20480) (W : Mat 256 40960) (r : Fin 4096) (c : Fin 256) (n : Nat) :
    ftUpTo u v W r c n
      = ∑ i ∈ Finset.range n, (if h : i < 10 then tile u v W r c ⟨i, h⟩ else 0) := by
  induction n with
  | zero => rfl
  | succ n ih =>
    rw [Finset.sum_range_succ, ← ih]
    rfl

/-- The tiled feature transform is the sum of the ten tiles. -/
theorem ftTiled_eq_sum (u v : Mat 4096 20480) (W : Mat 256 40960) (r : Fin 4096) (c : Fin 256) :
    ftTiled u v W r c = ∑ k : Fin 10, tile u v W r c k := by
  unfold ftTiled
  rw [ftUpTo_eq_sum_range, Finset.sum_range]
  exact Finset.sum_congr rfl (fun i _ => by rw [dif_pos i.isLt])

/-! ### The law -/

/-- Tile by tile or at once, the feature transform is the same extended real. -/
theorem ftTiled_eq_ftWhole (u v : Mat 4096 20480) (W : Mat 256 40960) (r : Fin 4096) (c : Fin 256) :
    ftTiled u v W r c = ftWhole u v W r c := by
  rw [ftTiled_eq_sum]
  unfold ftWhole
  rw [sum_tiles (fun j : Fin 40960 => joined u v r j * W (ix2 c j))]
  refine Finset.sum_congr rfl (fun k _ => ?_)
  unfold tile
  simp only [joined_loCol, joined_hiCol]

end Cert.Nnue

end
-- ==== Proof.KIValue.lean ====
/-
  The kernel's result array, at the ideal instance, is the network's output row by row.

  Within one batch tile the ten reduction tiles are visited in order. After tile `k` each accumulator holds, at row
  `p` and column `q`, the running sum of the first `k + 1` tiles of its feature transform (`ftUpTo … (k + 1)`): the
  first tile starts from the zero just stored, every later one adds its two partial products to what the tile before
  left. On the last tile the body reads both accumulators back, adds the biases, mixes by the side-to-move bit, clamps,
  and runs the three layers: that is `Cert.Nnue.out` at the tile's row, and the write-back puts it at row
  `(t / 10) · 512 + p` of the result. The 8 last tiles' blocks cover the 4096 rows.
-/
import proofs.«144363_j27049704030261_1_alg».proof.Proof.KIFrameB
import proofs.«144363_j27049704030261_1_alg».proof.Proof.KIPieces
import proofs.«144363_j27049704030261_1_alg».proof.Proof.KIBlocks
import proofs.«144363_j27049704030261_1_alg».proof.Proof.Payloads
import proofs.«144363_j27049704030261_1_alg».proof.Proof.NnueLaw
import Idealize.ShloMosaic.Lib.Pipeline.Value

set_option maxRecDepth 16384

noncomputable section

namespace Cert.KernelIdeal.Hand

open Cert.KernelIdeal Cert.KernelIdeal.Gen Cert.KernelIdeal.PayValue Cert.Nnue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The argument arrays as matrices and vectors of extended reals -/

abbrev aPov (c : Dev nD) : Mat 4096 1 := V m c main_arg0
abbrev aWhite (c : Dev nD) : Mat 4096 20480 := V m c main_arg1
abbrev aBlack (c : Dev nD) : Mat 4096 20480 := V m c main_arg2
abbrev aWw (c : Dev nD) : Mat 256 40960 := V m c main_arg3
abbrev aBw (c : Dev nD) : Vc 256 := V m c main_arg4
abbrev aWb (c : Dev nD) : Mat 256 40960 := V m c main_arg5
abbrev aBb (c : Dev nD) : Vc 256 := V m c main_arg6
abbrev aW0 (c : Dev nD) : Mat 32 512 := V m c main_arg7
abbrev aB0 (c : Dev nD) : Vc 32 := V m c main_arg8
abbrev aW1 (c : Dev nD) : Mat 32 32 := V m c main_arg9
abbrev aB1 (c : Dev nD) : Vc 32 := V m c main_arg10
abbrev aW2 (c : Dev nD) : Mat 1 32 := V m c main_arg11
abbrev aB2 (c : Dev nD) : Vc 1 := V m c main_arg12

/-- The result row that row `p` of point `t`'s block is. -/
def rowOf (t : Fin cfg0.N) (p : Fin 512) : Fin 4096 :=
  ⟨(t.val / 10) * 512 + p.val, by have := lt_of_lt_of_eq t.isLt (show cfg0.N = 80 from N_0); have := p.isLt; omega⟩
/-- The reduction tile of point `t`. -/
def tileOf (t : Fin cfg0.N) : Fin 10 := ⟨t.val % 10, Nat.mod_lt _ (by decide)⟩

/-! ## The found pieces at a point are the skeleton's payloads of the point's blocks -/

theorem firstAt0 (c : Dev nD) (t : Fin cfg0.N) (h0 h1) :
    View.canon (firstAt m c t h0 h1).1 = k0_pay9 (iblk m c 1 t) (iblk m c 2 t) (iblk m c 3 t) (iblk m c 4 t) (k0_pay5 (F := Ideal)) :=
  canonFirst0 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
theorem firstAt1 (c : Dev nD) (t : Fin cfg0.N) (h0 h1) :
    View.canon (firstAt m c t h0 h1).2.1 = k0_pay1 (k0_pay10 (iblk m c 1 t) (iblk m c 2 t) (iblk m c 5 t) (iblk m c 6 t) (k0_pay6 (F := Ideal))) :=
  canonFirst1 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
theorem midAt0 (c : Dev nD) (t : Fin cfg0.N) (h0 h1) (a0 a1 : Vec Ideal S512x256 .f32) :
    View.canon (midAt m c t h0 h1 a0 a1).1 = k0_pay9 (iblk m c 1 t) (iblk m c 2 t) (iblk m c 3 t) (iblk m c 4 t) a0 :=
  canonMid0 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1
theorem midAt1 (c : Dev nD) (t : Fin cfg0.N) (h0 h1) (a0 a1 : Vec Ideal S512x256 .f32) :
    View.canon (midAt m c t h0 h1 a0 a1).2.1 = k0_pay1 (k0_pay10 (iblk m c 1 t) (iblk m c 2 t) (iblk m c 5 t) (iblk m c 6 t) a1) :=
  canonMid1 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1
theorem lastAt0 (c : Dev nD) (t : Fin cfg0.N) (h0 h1) (a0 a1 : Vec Ideal S512x256 .f32) :
    View.canon (lastAt m c t h0 h1 a0 a1).2.1 = k0_pay9 (iblk m c 1 t) (iblk m c 2 t) (iblk m c 3 t) (iblk m c 4 t) a0 :=
  canonLast0 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1
theorem lastAt1 (c : Dev nD) (t : Fin cfg0.N) (h0 h1) (a0 a1 : Vec Ideal S512x256 .f32) :
    View.canon (lastAt m c t h0 h1 a0 a1).2.2.1 = k0_pay1 (k0_pay10 (iblk m c 1 t) (iblk m c 2 t) (iblk m c 5 t) (iblk m c 6 t) a1) :=
  canonLast1 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1
theorem lastAtO (c : Dev nD) (t : Fin cfg0.N) (h0 h1) (a0 a1 : Vec Ideal S512x256 .f32) :
    View.canon (lastAt m c t h0 h1 a0 a1).1
      = k0_pay2 (k0_pay3 (k0_pay9 (iblk m c 1 t) (iblk m c 2 t) (iblk m c 3 t) (iblk m c 4 t) a0) (iblk m c 7 t)
            (k0_pay1 (k0_pay10 (iblk m c 1 t) (iblk m c 2 t) (iblk m c 5 t) (iblk m c 6 t) a1)) (iblk m c 8 t) (iblk m c 0 t) (iblk m c 9 t) (iblk m c 10 t) (iblk m c 11 t))
          (k0_pay4 (iblk m c 12 t)) (iblk m c 13 t) (iblk m c 14 t) :=
  canonLastO (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM0 (Memref.isWhole_whole _) scM1 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a0 a1

/-! ## One tile's step, read at an index -/

/-- The first accumulator's update at point `t`: what it held plus tile `t % 10` of the first feature transform. -/
theorem step0 (c : Dev nD) (t : Fin cfg0.N) (a0 : Vec Ideal S512x256 .f32) (p : Fin 512) (q : Fin 256) :
    k0_pay9 (F := Ideal) (iblk m c 1 t) (iblk m c 2 t) (iblk m c 3 t) (iblk m c 4 t) a0 (ix2 p q)
      = a0 (ix2 p q) + tile (aWhite m c) (aBlack m c) (aWw m c) (rowOf t p) q (tileOf t) := by
  rw [pay9_apply]
  unfold tile
  congr 2
  · exact Finset.sum_congr rfl fun j _ => by rw [blk1_apply m c t p j, blk3_apply m c t q j]; rfl
  · exact Finset.sum_congr rfl fun j _ => by rw [blk2_apply m c t p j, blk4_apply m c t q j]; rfl

/-- The second accumulator's update at point `t`: the same with the two feature rows exchanged and the other weights. -/
theorem step1 (c : Dev nD) (t : Fin cfg0.N) (a1 : Vec Ideal S512x256 .f32) (p : Fin 512) (q : Fin 256) :
    k0_pay1 (F := Ideal) (k0_pay10 (iblk m c 1 t) (iblk m c 2 t) (iblk m c 5 t) (iblk m c 6 t) a1) (ix2 p q)
      = a1 (ix2 p q) + tile (aBlack m c) (aWhite m c) (aWb m c) (rowOf t p) q (tileOf t) := by
  rw [pay1_eq, pay10_apply]
  unfold tile
  congr 2
  · exact Finset.sum_congr rfl fun j _ => by rw [blk2_apply m c t p j, blk5_apply m c t q j]; rfl
  · exact Finset.sum_congr rfl fun j _ => by rw [blk1_apply m c t p j, blk6_apply m c t q j]; rfl

/-! ## The accumulators after each point -/

theorem rowOf_pred (t : Fin cfg0.N) (h0 : ¬t.val % 10 = 0) (p : Fin 512) :
    rowOf ⟨t.val - 1, Nat.lt_of_le_of_lt (Nat.sub_le _ _) t.isLt⟩ p = rowOf t p := by
  apply Fin.ext; show ((t.val - 1) / 10) * 512 + p.val = (t.val / 10) * 512 + p.val; congr 2; omega

/-- The running sum after the first tile alone: zero plus that tile. -/
theorem ftUpTo_start (u v : Mat 4096 20480) (W : Mat 256 40960) (r : Fin 4096) (q : Fin 256) (k : Fin 10) (hk : k.val = 0) :
    (0 : EReal) + tile u v W r q k = ftUpTo u v W r q (k.val + 1) := by
  rw [ftUpTo_succ, hk]; rfl

/-- On a first tile each accumulator holds its first tile: the running sum after one tile. -/
theorem acc_first (c : Dev nD) (t : Fin cfg0.N) (h0 : t.val % 10 = 0) (p : Fin 512) (q : Fin 256) :
    (stAt m c t.val t.isLt).2.1 (ix2 p q) = ftUpTo (aWhite m c) (aBlack m c) (aWw m c) (rowOf t p) q (t.val % 10 + 1)
    ∧ (stAt m c t.val t.isLt).2.2 (ix2 p q) = ftUpTo (aBlack m c) (aWhite m c) (aWb m c) (rowOf t p) q (t.val % 10 + 1) := by
  have h1 : ¬t.val % 10 = 9 := by omega
  rw [stAt_first m c t h0 h1]
  dsimp only
  rw [firstAt0, firstAt1, step0, step1, pay5_apply, pay6_apply, Ideal.ofBits_zero_f32]
  exact ⟨ftUpTo_start _ _ _ _ _ (tileOf t) h0, ftUpTo_start _ _ _ _ _ (tileOf t) h0⟩

/-- Past a first tile: if the point before left the running sums of the tiles so far, this point leaves them with
    its own tile added. -/
theorem acc_next (c : Dev nD) (t : Fin cfg0.N) (h0 : ¬t.val % 10 = 0) (p : Fin 512) (q : Fin 256)
    (hp0 : (prevSt m c t).2.1 (ix2 p q) = ftUpTo (aWhite m c) (aBlack m c) (aWw m c) (rowOf t p) q (tileOf t).val)
    (hp1 : (prevSt m c t).2.2 (ix2 p q) = ftUpTo (aBlack m c) (aWhite m c) (aWb m c) (rowOf t p) q (tileOf t).val) :
    (stAt m c t.val t.isLt).2.1 (ix2 p q) = ftUpTo (aWhite m c) (aBlack m c) (aWw m c) (rowOf t p) q (t.val % 10 + 1)
    ∧ (stAt m c t.val t.isLt).2.2 (ix2 p q) = ftUpTo (aBlack m c) (aWhite m c) (aWb m c) (rowOf t p) q (t.val % 10 + 1) := by
  by_cases h1 : t.val % 10 = 9
  · rw [stAt_last m c t h0 h1]
    dsimp only
    rw [lastAt0, lastAt1, step0, step1, hp0, hp1]
    exact ⟨(ftUpTo_succ _ _ _ _ _ (tileOf t)).symm, (ftUpTo_succ _ _ _ _ _ (tileOf t)).symm⟩
  · rw [stAt_mid m c t h0 h1]
    dsimp only
    rw [midAt0, midAt1, step0, step1, hp0, hp1]
    exact ⟨(ftUpTo_succ _ _ _ _ _ (tileOf t)).symm, (ftUpTo_succ _ _ _ _ _ (tileOf t)).symm⟩

/-- After the body at point `t` each accumulator holds, at row `p` and column `q`, the running sum of the first
    `t % 10 + 1` tiles of its feature transform at the point's row. -/
theorem acc_eq (c : Dev nD) : ∀ (n : ℕ) (hn : n < cfg0.N) (p : Fin 512) (q : Fin 256),
    (stAt m c n hn).2.1 (ix2 p q) = ftUpTo (aWhite m c) (aBlack m c) (aWw m c) (rowOf ⟨n, hn⟩ p) q (n % 10 + 1)
    ∧ (stAt m c n hn).2.2 (ix2 p q) = ftUpTo (aBlack m c) (aWhite m c) (aWb m c) (rowOf ⟨n, hn⟩ p) q (n % 10 + 1) := by
  intro n
  induction n with
  | zero =>
    intro hn p q
    exact acc_first m c ⟨0, hn⟩ (Nat.zero_mod _) p q
  | succ n ih =>
    intro hn p q
    by_cases h0 : (n + 1) % 10 = 0
    · exact acc_first m c ⟨n + 1, hn⟩ h0 p q
    · have hprev := ih (Nat.lt_of_succ_lt hn) p q
      have hrow : rowOf ⟨n, Nat.lt_of_succ_lt hn⟩ p = rowOf ⟨n + 1, hn⟩ p := rowOf_pred ⟨n + 1, hn⟩ h0 p
      have hk : n % 10 + 1 = (tileOf ⟨n + 1, hn⟩).val := by show n % 10 + 1 = (n + 1) % 10; omega
      refine acc_next m c ⟨n + 1, hn⟩ h0 p q (hprev.1.trans ?_) (hprev.2.trans ?_)
      · rw [hrow, hk]
      · rw [hrow, hk]

/-! ## What a last tile writes back, and the whole result array -/

/-- The network's output, row by row, as contents of the result array. -/
def Gout (c : Dev nD) : S4096x1.Idx → EReal := fun i =>
  Cert.Nnue.out (Ideal.ofBits .f32 0x3F800000#32) (Ideal.ofBits .f32 0x00000000#32)
    (fun r q => ftTiled (aWhite m c) (aBlack m c) (aWw m c) r q) (fun r q => ftTiled (aBlack m c) (aWhite m c) (aWb m c) r q)
    (aPov m c) (aBw m c) (aBb m c) (aW0 m c) (aB0 m c) (aW1 m c) (aB1 m c) (aW2 m c) (aB2 m c) (i 0)

/-- On a last tile both accumulators hold their whole feature transforms at the point's rows. -/
theorem acc_last (c : Dev nD) (t : Fin cfg0.N) (h0 : ¬t.val % 10 = 0) (h1 : t.val % 10 = 9) (p : Fin 512) (q : Fin 256) :
    k0_pay9 (F := Ideal) (iblk m c 1 t) (iblk m c 2 t) (iblk m c 3 t) (iblk m c 4 t) (prevSt m c t).2.1 (ix2 p q)
        = ftTiled (aWhite m c) (aBlack m c) (aWw m c) (rowOf t p) q
    ∧ k0_pay1 (F := Ideal) (k0_pay10 (iblk m c 1 t) (iblk m c 2 t) (iblk m c 5 t) (iblk m c 6 t) (prevSt m c t).2.2) (ix2 p q)
        = ftTiled (aBlack m c) (aWhite m c) (aWb m c) (rowOf t p) q := by
  have h := acc_eq m c t.val t.isLt p q
  rw [stAt_last m c t h0 h1] at h
  dsimp only at h
  rw [lastAt0, lastAt1, h1] at h
  exact h

/-- WHAT A LAST TILE WRITES BACK is its block of the network's output. -/
theorem flushed15 (c : Dev nD) (t : Fin cfg0.N) (hf : (cfg0.win 15).flush t = true) :
    (dats m 0 c).flushed 15 t = ((cfg0.win 15).blk t).view.read (Elt Ideal) (Gout m c) := by
  have h1 : t.val % 10 = 9 := last_of_flush15 t hf
  have h0 : ¬t.val % 10 = 0 := by omega
  have hst : (dats m 0 c).after 15 t
      = k0_pay2 (k0_pay3 (k0_pay9 (iblk m c 1 t) (iblk m c 2 t) (iblk m c 3 t) (iblk m c 4 t) (prevSt m c t).2.1) (iblk m c 7 t)
            (k0_pay1 (k0_pay10 (iblk m c 1 t) (iblk m c 2 t) (iblk m c 5 t) (iblk m c 6 t) (prevSt m c t).2.2)) (iblk m c 8 t) (iblk m c 0 t) (iblk m c 9 t) (iblk m c 10 t) (iblk m c 11 t))
          (k0_pay4 (iblk m c 12 t)) (iblk m c 13 t) (iblk m c 14 t) := by
    rw [after15, stAt_last m c t h0 h1]
    exact lastAtO m c t h0 h1 _ _
  show (cfg0.win 15).cut (grid0.coords t) ((dats m 0 c).after 15 t) = _
  rw [hst]
  refine funext fun (y : S512x1.Idx) => ?_
  obtain ⟨p, z, rfl⟩ : ∃ (p : Fin 512) (z : Fin 1), y = ix2 p z := ⟨y 0, y 1, eq_ix2 y⟩
  obtain rfl : z = 0 := Subsingleton.elim _ _
  refine Eq.trans ?_ (blk15_read_apply (F := Ideal) c (Gout m c) t p).symm
  refine (tail_apply _ _ _ _ _ _ _ _ _ _ _ p).trans ?_
  have hw : (fun q : Fin 256 => k0_pay9 (F := Ideal) (iblk m c 1 t) (iblk m c 2 t) (iblk m c 3 t) (iblk m c 4 t) (prevSt m c t).2.1 (ix2 p q) + (iblk m c 7 t : Vec Ideal S256 .f32) (ix1 q))
      = fun q => ftTiled (aWhite m c) (aBlack m c) (aWw m c) (rowOf t p) q + aBw m c (ix1 q) :=
    funext fun q => by rw [(acc_last m c t h0 h1 p q).1, blk7_eq m c t]
  have hb : (fun q : Fin 256 => k0_pay1 (F := Ideal) (k0_pay10 (iblk m c 1 t) (iblk m c 2 t) (iblk m c 5 t) (iblk m c 6 t) (prevSt m c t).2.2) (ix2 p q) + (iblk m c 8 t : Vec Ideal S256 .f32) (ix1 q))
      = fun q => ftTiled (aBlack m c) (aWhite m c) (aWb m c) (rowOf t p) q + aBb m c (ix1 q) :=
    funext fun q => by rw [(acc_last m c t h0 h1 p q).2, blk8_eq m c t]
  rw [hw, hb, blk0_apply m c t p, blk9_eq m c t, blk10_eq m c t, blk11_eq m c t, blk12_eq m c t, blk13_eq m c t, blk14_eq m c t]
  rfl

/-- THE RESULT ARRAY after the run: the eight last tiles' blocks cover its 4096 rows, so it holds the network's output. -/
theorem final15 (c : Dev nD) : (dats m 0 c).arrAt 15 cfg0.N = Gout m c :=
  (dats m 0 c).arrAt_eq_of_cover 15 (Gout m c) (fun t hf => flushed15 m c t hf) cover15

end Cert.KernelIdeal.Hand

end
-- ==== Proof.KIRunValue.lean ====
import proofs.«144363_j27049704030261_1_alg».proof.Proof.KIRun
import proofs.«144363_j27049704030261_1_alg».proof.Proof.KIValue

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The kernel's run at the ideal instance, read: the result array at the network's output, the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c 15).trans (final15 m c), kept_arg0 m c r h, kept_arg1 m c r h, kept_arg2 m c r h, kept_arg3 m c r h, kept_arg4 m c r h, kept_arg5 m c r h, kept_arg6 m c r h, kept_arg7 m c r h, kept_arg8 m c r h, kept_arg9 m c r h, kept_arg10 m c r h, kept_arg11 m c r h, kept_arg12 m c r h⟩) (run_main m ρ)

end Cert.KernelIdeal.Hand

end
-- ==== Proof.RefIsSpec.lean ====
/-
  The reference program computes the network of the specification.

  Read index by index, the reference's stages are: the two feature rows of a position laid side by side and
  multiplied against a row of the 256 × 40960 weights (a sum over the 40960 columns: the whole feature transform),
  a bias added; the two 256-wide results laid side by side in both orders, weighted by the side-to-move bit and its
  complement, added and clamped at zero (the mixed hidden row of 512); three affine layers, the first two clamped
  at zero. Each stage below is the corresponding piece of the specification; the last step trades the whole
  feature transform for the tiled one by the regrouping law.
-/
import proofs.«144363_j27049704030261_1_alg».proof.Proof.Gen.ReferenceIdeal.Read
import proofs.«144363_j27049704030261_1_alg».proof.Proof.NnueSpec
import proofs.«144363_j27049704030261_1_alg».proof.Proof.NnueLaw

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Nnue (Mat Vc joined ftWhole ftTiled mix layer)

/-! ### The joined feature row and the whole feature transform -/

/-- Two feature rows laid side by side, read at a column: the joined row. -/
theorem concat_rows_apply (u v : Mat 4096 20480) (r : Fin 4096) (k : Fin 40960) :
    concatenate S4096x40960 1 [⟨S4096x20480, u⟩, ⟨S4096x20480, v⟩]
        concatenates_S4096x20480_S4096x20480_S4096x40960_d1 (ix2 r k) = joined u v r k := by
  unfold joined
  by_cases h : k.val < 20480
  · rw [dif_pos h]
    exact concatenate_pair_apply_left 1 u v concatenates_S4096x20480_S4096x20480_S4096x40960_d1 (ix2 r k) rfl
      (ix2 r ⟨k.val, h⟩) (fun b => by
        match b with
        | ⟨0, _⟩ => rfl
        | ⟨1, _⟩ => rfl)
  · rw [dif_neg h]
    exact concatenate_pair_apply_right 1 u v concatenates_S4096x20480_S4096x20480_S4096x40960_d1 (ix2 r k) rfl rfl
      (ix2 r ⟨k.val - 20480, by omega⟩)
      (fun b hb => by
        match b with
        | ⟨0, _⟩ => rfl
        | ⟨1, _⟩ => exact absurd rfl hb)
      (by show k.val - 20480 + 20480 = k.val; omega)

/-- The first product of the reference, at row `r` and column `c`: the whole feature transform of the joined row
    `[white r, black r]` against row `c` of the first weights. -/
theorem ft_white (x1 x2 : Mat 4096 20480) (x3 : Mat 256 40960) (r : Fin 4096) (c : Fin 256) :
    val_main_v2 (F := Ideal) x1 x2 x3 (ix2 r c) = ftWhole x1 x2 x3 r c := by
  have el : ∀ k : Fin 40960, lidx_main_v2 (ix2 r c) k = ix2 r k := fun k => funext fun a => Fin.ext (by
    match a with
    | ⟨0, _⟩ => rfl
    | ⟨1, _⟩ => rfl)
  have er : ∀ k : Fin 40960, idx_main_v1 (ridx_main_v2 (ix2 r c) k) = ix2 c k := fun k => funext fun a => Fin.ext (by
    match a with
    | ⟨0, _⟩ => rfl
    | ⟨1, _⟩ => rfl)
  rw [val_main_v2_apply]
  unfold ftWhole
  refine Finset.sum_congr rfl (fun k _ => ?_)
  rw [val_main_v1_apply, el, er]
  unfold val_main_v0
  rw [concat_rows_apply]

/-- The second product of the reference: the whole feature transform of the joined row `[black r, white r]` against
    row `c` of the second weights. -/
theorem ft_black (x1 x2 : Mat 4096 20480) (x5 : Mat 256 40960) (r : Fin 4096) (c : Fin 256) :
    val_main_v8 (F := Ideal) x1 x2 x5 (ix2 r c) = ftWhole x2 x1 x5 r c := by
  have el : ∀ k : Fin 40960, lidx_main_v8 (ix2 r c) k = ix2 r k := fun k => funext fun a => Fin.ext (by
    match a with
    | ⟨0, _⟩ => rfl
    | ⟨1, _⟩ => rfl)
  have er : ∀ k : Fin 40960, idx_main_v7 (ridx_main_v8 (ix2 r c) k) = ix2 c k := fun k => funext fun a => Fin.ext (by
    match a with
    | ⟨0, _⟩ => rfl
    | ⟨1, _⟩ => rfl)
  rw [val_main_v8_apply]
  unfold ftWhole
  refine Finset.sum_congr rfl (fun k _ => ?_)
  rw [val_main_v7_apply, el, er]
  unfold val_main_v6
  rw [concat_rows_apply]

/-! ### The two 256-wide rows: feature transform plus bias -/

/-- A 256-vector broadcast down the 4096 rows, read at row `r`, column `c`: its entry `c`. -/
theorem bias_white (x4 : Vc 256) (r : Fin 4096) (c : Fin 256) :
    val_main_v4 (F := Ideal) x4 (ix2 r c) = x4 (ix1 c) := by
  rw [val_main_v4_apply, val_main_v3_apply]
  exact congrArg x4 (funext fun a => Fin.ext (by
    match a with
    | ⟨0, _⟩ => rfl))

theorem bias_black (x6 : Vc 256) (r : Fin 4096) (c : Fin 256) :
    val_main_v10 (F := Ideal) x6 (ix2 r c) = x6 (ix1 c) := by
  rw [val_main_v10_apply, val_main_v9_apply]
  exact congrArg x6 (funext fun a => Fin.ext (by
    match a with
    | ⟨0, _⟩ => rfl))

/-- The white-side row: feature transform of `[white, black]` plus its bias. -/
theorem row_white (x1 x2 : Mat 4096 20480) (x3 : Mat 256 40960) (x4 : Vc 256) (r : Fin 4096) (c : Fin 256) :
    val_main_v5 (F := Ideal) x1 x2 x3 x4 (ix2 r c) = ftWhole x1 x2 x3 r c + x4 (ix1 c) := by
  rw [val_main_v5_apply, ft_white, bias_white]
  rfl

/-- The black-side row: feature transform of `[black, white]` plus its bias. -/
theorem row_black (x1 x2 : Mat 4096 20480) (x5 : Mat 256 40960) (x6 : Vc 256) (r : Fin 4096) (c : Fin 256) :
    val_main_v11 (F := Ideal) x1 x2 x5 x6 (ix2 r c) = ftWhole x2 x1 x5 r c + x6 (ix1 c) := by
  rw [val_main_v11_apply, ft_black, bias_black]
  rfl

/-! ### The mixed hidden row -/

/-- Two 256-wide rows laid side by side, read at a column of 512. -/
theorem concat_cols_apply (a b : Mat 4096 256) (r : Fin 4096) (d : Fin 512) :
    concatenate S4096x512 1 [⟨S4096x256, a⟩, ⟨S4096x256, b⟩]
        concatenates_S4096x256_S4096x256_S4096x512_d1 (ix2 r d)
      = if h : d.val < 256 then a (ix2 r ⟨d.val, h⟩) else b (ix2 r ⟨d.val - 256, by omega⟩) := by
  by_cases h : d.val < 256
  · rw [dif_pos h]
    exact concatenate_pair_apply_left 1 a b concatenates_S4096x256_S4096x256_S4096x512_d1 (ix2 r d) rfl
      (ix2 r ⟨d.val, h⟩) (fun q => by
        match q with
        | ⟨0, _⟩ => rfl
        | ⟨1, _⟩ => rfl)
  · rw [dif_neg h]
    exact concatenate_pair_apply_right 1 a b concatenates_S4096x256_S4096x256_S4096x512_d1 (ix2 r d) rfl rfl
      (ix2 r ⟨d.val - 256, by omega⟩)
      (fun q hq => by
        match q with
        | ⟨0, _⟩ => rfl
        | ⟨1, _⟩ => exact absurd rfl hq)
      (by show d.val - 256 + 256 = d.val; omega)

/-- The side-to-move bit of row `r`, broadcast along the 512 columns. -/
theorem pov_apply (x0 : Mat 4096 1) (r : Fin 4096) (d : Fin 512) :
    val_main_v13 (F := Ideal) x0 (ix2 r d) = x0 (ix2 r 0) := by
  rw [val_main_v13_apply]
  exact congrArg x0 (funext fun a => Fin.ext (by
    match a with
    | ⟨0, _⟩ => rfl
    | ⟨1, _⟩ => rfl))

/-- One minus the side-to-move bit of row `r`, broadcast along the 512 columns. -/
theorem copov_apply (x0 : Mat 4096 1) (r : Fin 4096) (d : Fin 512) :
    val_main_v18 (F := Ideal) x0 (ix2 r d) = Ideal.ofBits .f32 0x3F800000#32 - x0 (ix2 r 0) := by
  have e : idx_main_v18 (ix2 r d) = ix2 r 0 := funext fun a => Fin.ext (by
    match a with
    | ⟨0, _⟩ => rfl
    | ⟨1, _⟩ => rfl)
  rw [val_main_v18_apply, e, val_main_v16_apply, val_main_v15_apply, val_main_cst_apply]
  rfl

/-- The mixed, clamped hidden row of the reference at column `d` of 512. -/
theorem hidden_apply (x0 : Mat 4096 1) (x1 x2 : Mat 4096 20480) (x3 : Mat 256 40960) (x4 : Vc 256)
    (x5 : Mat 256 40960) (x6 : Vc 256) (r : Fin 4096) (d : Fin 512) :
    val_main_v21 (F := Ideal) x0 x1 x2 x3 x4 x5 x6 (ix2 r d)
      = mix (Ideal.ofBits .f32 0x3F800000#32) (Ideal.ofBits .f32 0x00000000#32) (x0 (ix2 r 0))
          (fun c => ftWhole x1 x2 x3 r c + x4 (ix1 c)) (fun c => ftWhole x2 x1 x5 r c + x6 (ix1 c)) d := by
  rw [val_main_v21_apply, val_main_v20_apply, val_main_v14_apply, val_main_v19_apply, pov_apply, copov_apply,
    val_main_call0_v0_apply, val_main_call0_cst_apply]
  unfold val_main_v12 val_main_v17
  rw [concat_cols_apply, concat_cols_apply]
  unfold mix
  by_cases h : d.val < 256
  · simp only [dif_pos h, row_white, row_black]
    rfl
  · simp only [dif_neg h, row_white, row_black]
    rfl

/-! ### The three affine layers -/

/-- The first layer, clamped: 512 → 32. -/
theorem layer0_apply (x0 : Mat 4096 1) (x1 x2 : Mat 4096 20480) (x3 : Mat 256 40960) (x4 : Vc 256)
    (x5 : Mat 256 40960) (x6 : Vc 256) (x7 : Mat 32 512) (x8 : Vc 32) (r : Fin 4096) (e : Fin 32) :
    val_main_v27 (F := Ideal) x0 x1 x2 x3 x4 x5 x6 x7 x8 (ix2 r e)
      = max (layer (fun d : Fin 512 => val_main_v21 (F := Ideal) x0 x1 x2 x3 x4 x5 x6 (ix2 r d)) x7 x8 e)
          (Ideal.ofBits .f32 0x00000000#32) := by
  have el : ∀ k : Fin 512, lidx_main_v23 (ix2 r e) k = ix2 r k := fun k => funext fun a => Fin.ext (by
    match a with
    | ⟨0, _⟩ => rfl
    | ⟨1, _⟩ => rfl)
  have er : ∀ k : Fin 512, idx_main_v22 (ridx_main_v23 (ix2 r e) k) = ix2 e k := fun k => funext fun a => Fin.ext (by
    match a with
    | ⟨0, _⟩ => rfl
    | ⟨1, _⟩ => rfl)
  have eb : idx_main_v24 (idx_main_v25 (ix2 r e)) = ix1 e := funext fun a => Fin.ext (by
    match a with
    | ⟨0, _⟩ => rfl)
  rw [val_main_v27_apply, val_main_v26_apply, val_main_v23_apply, val_main_v25_apply, val_main_v24_apply, eb,
    val_main_call1_v0_apply, val_main_call1_cst_apply]
  unfold layer
  have hs : (∑ k : Fin 512, val_main_v21 (F := Ideal) x0 x1 x2 x3 x4 x5 x6 (lidx_main_v23 (ix2 r e) k)
        * val_main_v22 (F := Ideal) x7 (ridx_main_v23 (ix2 r e) k))
      = ∑ k : Fin 512, val_main_v21 (F := Ideal) x0 x1 x2 x3 x4 x5 x6 (ix2 r k) * x7 (ix2 e k) :=
    Finset.sum_congr rfl (fun k _ => by rw [val_main_v22_apply, el, er])
  rw [hs]
  rfl

/-- The second layer, clamped: 32 → 32. -/
theorem layer1_apply (x0 : Mat 4096 1) (x1 x2 : Mat 4096 20480) (x3 : Mat 256 40960) (x4 : Vc 256)
    (x5 : Mat 256 40960) (x6 : Vc 256) (x7 : Mat 32 512) (x8 : Vc 32) (x9 : Mat 32 32) (x10 : Vc 32)
    (r : Fin 4096) (e : Fin 32) :
    val_main_v33 (F := Ideal) x0 x1 x2 x3 x4 x5 x6 x7 x8 x9 x10 (ix2 r e)
      = max (layer (fun d : Fin 32 => val_main_v27 (F := Ideal) x0 x1 x2 x3 x4 x5 x6 x7 x8 (ix2 r d)) x9 x10 e)
          (Ideal.ofBits .f32 0x00000000#32) := by
  have el : ∀ k : Fin 32, lidx_main_v29 (ix2 r e) k = ix2 r k := fun k => funext fun a => Fin.ext (by
    match a with
    | ⟨0, _⟩ => rfl
    | ⟨1, _⟩ => rfl)
  have er : ∀ k : Fin 32, idx_main_v28 (ridx_main_v29 (ix2 r e) k) = ix2 e k := fun k => funext fun a => Fin.ext (by
    match a with
    | ⟨0, _⟩ => rfl
    | ⟨1, _⟩ => rfl)
  have eb : idx_main_v30 (idx_main_v31 (ix2 r e)) = ix1 e := funext fun a => Fin.ext (by
    match a with
    | ⟨0, _⟩ => rfl)
  rw [val_main_v33_apply, val_main_v32_apply, val_main_v29_apply, val_main_v31_apply, val_main_v30_apply, eb,
    val_main_call2_v0_apply, val_main_call2_cst_apply]
  unfold layer
  have hs : (∑ k : Fin 32, val_main_v27 (F := Ideal) x0 x1 x2 x3 x4 x5 x6 x7 x8 (lidx_main_v29 (ix2 r e) k)
        * val_main_v28 (F := Ideal) x9 (ridx_main_v29 (ix2 r e) k))
      = ∑ k : Fin 32, val_main_v27 (F := Ideal) x0 x1 x2 x3 x4 x5 x6 x7 x8 (ix2 r k) * x9 (ix2 e k) :=
    Finset.sum_congr rfl (fun k _ => by rw [val_main_v28_apply, el, er])
  rw [hs]
  rfl

/-- The last layer: 32 → 1. -/
theorem layer2_apply (x0 : Mat 4096 1) (x1 x2 : Mat 4096 20480) (x3 : Mat 256 40960) (x4 : Vc 256)
    (x5 : Mat 256 40960) (x6 : Vc 256) (x7 : Mat 32 512) (x8 : Vc 32) (x9 : Mat 32 32) (x10 : Vc 32)
    (x11 : Mat 1 32) (x12 : Vc 1) (r : Fin 4096) :
    val_main_v38 (F := Ideal) x0 x1 x2 x3 x4 x5 x6 x7 x8 x9 x10 x11 x12 (ix2 r 0)
      = layer (fun d : Fin 32 => val_main_v33 (F := Ideal) x0 x1 x2 x3 x4 x5 x6 x7 x8 x9 x10 (ix2 r d)) x11 x12 0 := by
  have el : ∀ k : Fin 32, lidx_main_v35 (ix2 r (0 : Fin 1)) k = ix2 r k := fun k => funext fun a => Fin.ext (by
    match a with
    | ⟨0, _⟩ => rfl
    | ⟨1, _⟩ => rfl)
  have er : ∀ k : Fin 32, idx_main_v34 (ridx_main_v35 (ix2 r (0 : Fin 1)) k) = ix2 (0 : Fin 1) k := fun k => funext fun a => Fin.ext (by
    match a with
    | ⟨0, _⟩ => rfl
    | ⟨1, _⟩ => rfl)
  have eb : idx_main_v36 (idx_main_v37 (ix2 r (0 : Fin 1))) = ix1 (0 : Fin 1) := funext fun a => Fin.ext (by
    match a with
    | ⟨0, _⟩ => rfl)
  rw [val_main_v38_apply, val_main_v35_apply, val_main_v37_apply, val_main_v36_apply, eb]
  unfold layer
  have hs : (∑ k : Fin 32, val_main_v33 (F := Ideal) x0 x1 x2 x3 x4 x5 x6 x7 x8 x9 x10 (lidx_main_v35 (ix2 r (0 : Fin 1)) k)
        * val_main_v34 (F := Ideal) x11 (ridx_main_v35 (ix2 r (0 : Fin 1)) k))
      = ∑ k : Fin 32, val_main_v33 (F := Ideal) x0 x1 x2 x3 x4 x5 x6 x7 x8 x9 x10 (ix2 r k) * x11 (ix2 (0 : Fin 1) k) :=
    Finset.sum_congr rfl (fun k _ => by rw [val_main_v34_apply, el, er])
  rw [hs]
  rfl

/-! ### The reference is the network -/

/-- The reference's result for position `r`, with the feature transforms taken at once. -/
theorem ref_apply_whole (x0 : Mat 4096 1) (x1 x2 : Mat 4096 20480) (x3 : Mat 256 40960) (x4 : Vc 256)
    (x5 : Mat 256 40960) (x6 : Vc 256) (x7 : Mat 32 512) (x8 : Vc 32) (x9 : Mat 32 32) (x10 : Vc 32)
    (x11 : Mat 1 32) (x12 : Vc 1) (r : Fin 4096) :
    val_main_v38 (F := Ideal) x0 x1 x2 x3 x4 x5 x6 x7 x8 x9 x10 x11 x12 (ix2 r 0)
      = Cert.Nnue.out (Ideal.ofBits .f32 0x3F800000#32) (Ideal.ofBits .f32 0x00000000#32)
          (fun r c => ftWhole x1 x2 x3 r c) (fun r c => ftWhole x2 x1 x5 r c)
          x0 x4 x6 x7 x8 x9 x10 x11 x12 r := by
  have H0 : (fun d : Fin 512 => val_main_v21 (F := Ideal) x0 x1 x2 x3 x4 x5 x6 (ix2 r d))
      = mix (Ideal.ofBits .f32 0x3F800000#32) (Ideal.ofBits .f32 0x00000000#32) (x0 (ix2 r 0))
          (fun c => ftWhole x1 x2 x3 r c + x4 (ix1 c)) (fun c => ftWhole x2 x1 x5 r c + x6 (ix1 c)) :=
    funext fun d => hidden_apply x0 x1 x2 x3 x4 x5 x6 r d
  have H1 : (fun e : Fin 32 => val_main_v27 (F := Ideal) x0 x1 x2 x3 x4 x5 x6 x7 x8 (ix2 r e))
      = fun e => max (layer (mix (Ideal.ofBits .f32 0x3F800000#32) (Ideal.ofBits .f32 0x00000000#32) (x0 (ix2 r 0))
          (fun c => ftWhole x1 x2 x3 r c + x4 (ix1 c)) (fun c => ftWhole x2 x1 x5 r c + x6 (ix1 c))) x7 x8 e)
          (Ideal.ofBits .f32 0x00000000#32) :=
    funext fun e => by rw [layer0_apply, H0]
  have H2 : (fun e : Fin 32 => val_main_v33 (F := Ideal) x0 x1 x2 x3 x4 x5 x6 x7 x8 x9 x10 (ix2 r e))
      = fun e => max (layer (fun e => max (layer (mix (Ideal.ofBits .f32 0x3F800000#32) (Ideal.ofBits .f32 0x00000000#32) (x0 (ix2 r 0))
          (fun c => ftWhole x1 x2 x3 r c + x4 (ix1 c)) (fun c => ftWhole x2 x1 x5 r c + x6 (ix1 c))) x7 x8 e)
          (Ideal.ofBits .f32 0x00000000#32)) x9 x10 e) (Ideal.ofBits .f32 0x00000000#32) :=
    funext fun e => by rw [layer1_apply, H1]
  rw [layer2_apply, H2]
  rfl

/-- The reference's result for position `r` is the network's output, the two feature transforms taken tile by tile.
    The thirteen arrays are typed as the reference's stages type them (contents of a buffer of the literal shape at
    the ideal instance), which is the specification's `Mat` / `Vc` unfolded. -/
theorem ref_apply (x0 : (⟨S4096x1, .f32⟩ : BufTy).Contents (Elt Ideal)) (x1 x2 : (⟨S4096x20480, .f32⟩ : BufTy).Contents (Elt Ideal))
    (x3 : (⟨S256x40960, .f32⟩ : BufTy).Contents (Elt Ideal)) (x4 : (⟨S256, .f32⟩ : BufTy).Contents (Elt Ideal))
    (x5 : (⟨S256x40960, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S1x32, .f32⟩ : BufTy).Contents (Elt Ideal)) (x12 : (⟨S1, .f32⟩ : BufTy).Contents (Elt Ideal))
    (r : Fin 4096) :
    val_main_v38 (F := Ideal) x0 x1 x2 x3 x4 x5 x6 x7 x8 x9 x10 x11 x12 (ix2 r 0)
      = Cert.Nnue.out (Ideal.ofBits .f32 0x3F800000#32) (Ideal.ofBits .f32 0x00000000#32)
          (fun r c => ftTiled x1 x2 x3 r c) (fun r c => ftTiled x2 x1 x5 r c)
          x0 x4 x6 x7 x8 x9 x10 x11 x12 r := by
  simp only [Cert.Nnue.ftTiled_eq_ftWhole]
  exact ref_apply_whole x0 x1 x2 x3 x4 x5 x6 x7 x8 x9 x10 x11 x12 r

end Cert.ReferenceIdeal.RefValue

end
-- ==== Proof.lean ====
/-
  An NNUE forward pass — two 4096 × 40960 feature transforms accumulated tile by tile over a reduction axis, a mix by
  the side-to-move bit, and three small affine layers — against its one-shot reference, over the extended reals.

  Both programs compute, for every position `r`, the same expression in the two feature transforms; they differ only
  in how each transform's 40960-term sum is grouped: the reference takes the joined row `[white r, black r]` against a
  weight row at once, the kernel adds up ten tiles, each the sum of a first-half and a second-half partial product,
  into an accumulator it keeps between grid points. Addition on the extended reals is commutative and associative, so
  the two groupings agree with no finiteness assumption (`Cert.Nnue.ftTiled_eq_ftWhole`); changes of float format are
  the identity at the ideal instance.

  The kernel reads each weight matrix through TWO windows (its first and its second 20480 columns), so the two windows
  share one array: each holds half of the array's share throughout the run (`hsplit`). What the body leaves in its two
  accumulators and in the output block is followed point by point over the 8 × 10 grid (`stAt`), the three control
  cases — first tile, middle tile, last tile — each run once on symbolic blocks; the result array is then read off the
  eight write-backs, whose blocks cover its 4096 rows.
-/
import proofs.«144363_j27049704030261_1_alg».proof.Defs
import proofs.«144363_j27049704030261_1_alg».proof.Proof.Gen.Kernel
import proofs.«144363_j27049704030261_1_alg».proof.Proof.Gen.KernelIdeal
import proofs.«144363_j27049704030261_1_alg».proof.Proof.Gen.ReferenceIdeal
import proofs.«144363_j27049704030261_1_alg».proof.Proof.Gen.Pre_finite_inputs
import proofs.«144363_j27049704030261_1_alg».proof.Proof.Gen.ReferenceIdeal.Run
import proofs.«144363_j27049704030261_1_alg».proof.Proof.Gen.ReferenceIdeal.Read
import proofs.«144363_j27049704030261_1_alg».proof.Proof.KRun
import proofs.«144363_j27049704030261_1_alg».proof.Proof.KIRunValue
import proofs.«144363_j27049704030261_1_alg».proof.Proof.RefIsSpec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel runs to the end, faults nowhere, and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read over the extended reals. -/
theorem preserves : Cert.preserves_Kernel_KernelIdeal := trivial

/-- From memories agreeing on the arguments, the kernel's result array ends at the network's output row by row (the
    kernel's value) and so does the reference's (its run, read index by index): equal as extended reals. -/
theorem algebraic : Cert.algebraic_KernelIdeal_ReferenceIdeal := by
  intro m ρ m' ρ' _ hagree
  refine ⟨fun c => Cert.KernelIdeal.Hand.Gout m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq]
  obtain ⟨e0, e1, e2, e3, e4, e5, e6, e7, e8, e9, e10, e11, e12⟩ := hagree c
  rw [e0, e1, e2, e3, e4, e5, e6, e7, e8, e9, e10, e11, e12]
  funext i
  obtain ⟨r, z, rfl⟩ : ∃ (r : Fin 4096) (z : Fin 1), i = ix2 r z := ⟨i 0, i 1, eq_ix2 i⟩
  obtain rfl : z = 0 := Subsingleton.elim _ _
  rw [Cert.ReferenceIdeal.RefValue.ref_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
